-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S128 .f32) (main_arg7 : FVec F S128x2 .f32) (main_arg8 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg7
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x2 .f32) (main_arg8 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S20000 : Shape := ⟨1, ![20000]⟩
abbrev S100000x1 : Shape := ⟨2, ![100000, 1]⟩
abbrev S20000x1 : Shape := ⟨2, ![20000, 1]⟩
abbrev S5000x128 : Shape := ⟨2, ![5000, 128]⟩
abbrev S1600000x128 : Shape := ⟨2, ![1600000, 128]⟩
abbrev S20000x128 : Shape := ⟨2, ![20000, 128]⟩
abbrev S1x128 : Shape := ⟨2, ![1, 128]⟩
abbrev S5000x1 : Shape := ⟨2, ![5000, 1]⟩
abbrev S64x128 : Shape := ⟨2, ![64, 128]⟩
abbrev S64 : Shape := ⟨1, ![64]⟩
abbrev S64x1 : Shape := ⟨2, ![64, 1]⟩
abbrev S1x2 : Shape := ⟨2, ![1, 2]⟩
abbrev S64x2 : Shape := ⟨2, ![64, 2]⟩

abbrev nBuf : Space → Nat
  | .hbm => 125
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S20000, .f32⟩
  | .hbm, ⟨21, _⟩ => ⟨S1600000x1, .i32⟩
  | .hbm, ⟨22, _⟩ => ⟨S20000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S_, .f32⟩
  | .hbm, ⟨35, _⟩ => ⟨S20000, .f32⟩
  | .hbm, ⟨36, _⟩ => ⟨S20000, .i1⟩
  | .hbm, ⟨37, _⟩ => ⟨S_, .f32⟩
  | .hbm, ⟨38, _⟩ => ⟨S20000, .f32⟩
  | .hbm, ⟨39, _⟩ => ⟨S20000, .f32⟩
  | .hbm, ⟨40, _⟩ => ⟨S_, .f32⟩
  | .hbm, ⟨41, _⟩ => ⟨S_, .f32⟩
  | .hbm, ⟨42, _⟩ => ⟨S20000, .f32⟩
  | .hbm, ⟨43, _⟩ => ⟨S20000, .f32⟩
  | .hbm, ⟨44, _⟩ => ⟨S20000x1, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S20000x128, .f32⟩
  | .hbm, ⟨57, _⟩ => ⟨S1600000x1, .i32⟩
  | .hbm, ⟨58, _⟩ => ⟨S20000x128, .f32⟩
  | .hbm, ⟨59, _⟩ => ⟨S20000x128, .f32⟩
  | .hbm, ⟨60, _⟩ => ⟨S20000x128, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x128, .f32⟩
  | .hbm, ⟨86, _⟩ => ⟨S_, .f32⟩
  | .hbm, ⟨87, _⟩ => ⟨S20000x128, .f32⟩
  | .hbm, ⟨88, _⟩ => ⟨S1600000x1, .i32⟩
  | .hbm, ⟨89, _⟩ => ⟨S20000x128, .f32⟩
  | .hbm, ⟨90, _⟩ => ⟨S20000x128, .f32⟩
  | .hbm, ⟨91, _⟩ => ⟨S20000x128, .f32⟩
  | .hbm, ⟨92, _⟩ => ⟨S_, .i32⟩
  | .hbm, ⟨93, _⟩ => ⟨S1600000, .i32⟩
  | .hbm, ⟨94, _⟩ => ⟨S1600000, .i1⟩
  | .hbm, ⟨95, _⟩ => ⟨S_, .i32⟩
  | .hbm, ⟨96, _⟩ => ⟨S1600000, .i32⟩
  | .hbm, ⟨97, _⟩ => ⟨S1600000, .i32⟩
  | .hbm, ⟨98, _⟩ => ⟨S1600000, .i32⟩
  | .hbm, ⟨99, _⟩ => ⟨S1600000x1, .i32⟩
  | .hbm, ⟨100, _⟩ => ⟨S1600000x128, .f32⟩
  | .hbm, ⟨101, _⟩ => ⟨S_, .f32⟩
  | .hbm, ⟨102, _⟩ => ⟨S100000x128, .f32⟩
  | .hbm, ⟨103, _⟩ => ⟨S1600000x1, .i32⟩
  | .hbm, ⟨104, _⟩ => ⟨S100000x128, .f32⟩
  | .hbm, ⟨105, _⟩ => ⟨S1x128, .f32⟩
  | .hbm, ⟨106, _⟩ => ⟨S100000x128, .f32⟩
  | .hbm, ⟨107, _⟩ => ⟨S_, .f32⟩
  | .hbm, ⟨108, _⟩ => ⟨S64x128, .f32⟩
  | .hbm, ⟨109, _⟩ => ⟨S100000x1, .i32⟩
  | .hbm, ⟨110, _⟩ => ⟨S64x128, .f32⟩
  | .hbm, ⟨111, _⟩ => ⟨S_, .f32⟩
  | .hbm, ⟨112, _⟩ => ⟨S100000, .f32⟩
  | .hbm, ⟨113, _⟩ => ⟨S_, .f32⟩
  | .hbm, ⟨114, _⟩ => ⟨S64, .f32⟩
  | .hbm, ⟨115, _⟩ => ⟨S100000x1, .i32⟩
  | .hbm, ⟨116, _⟩ => ⟨S64, .f32⟩
  | .hbm, ⟨117, _⟩ => ⟨S_, .f32⟩
  | .hbm, ⟨118, _⟩ => ⟨S64, .f32⟩
  | .hbm, ⟨119, _⟩ => ⟨S64, .f32⟩
  | .hbm, ⟨120, _⟩ => ⟨S64x1, .f32⟩
  | .hbm, ⟨121, _⟩ => ⟨S64x128, .f32⟩
  | .hbm, ⟨122, _⟩ => ⟨S64x128, .f32⟩
  | .hbm, ⟨123, _⟩ => ⟨S1x2, .f32⟩
  | .hbm, ⟨124, _⟩ => ⟨S64x2, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x1, .f32⟩
  | .local _ .vmem, ⟨8, _⟩ => ⟨S5000x1, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x1, .f32⟩
  | .local _ .vmem, ⟨20, _⟩ => ⟨S5000x1, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S64x128, .f32⟩
  | .local _ .vmem, ⟨25, _⟩ => ⟨S128x2, .f32⟩
  | .local _ .vmem, ⟨26, _⟩ => ⟨S1x2, .f32⟩
  | .local _ .vmem, ⟨27, _⟩ => ⟨S64x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_v16 : Ref sig .tc := ⟨.hbm, 33, rfl⟩
abbrev main_cst_5 : Ref sig .tc := ⟨.hbm, 34, rfl⟩
abbrev main_v17 : Ref sig .tc := ⟨.hbm, 35, rfl⟩
abbrev main_v18 : Ref sig .tc := ⟨.hbm, 36, rfl⟩
abbrev main_cst_6 : Ref sig .tc := ⟨.hbm, 37, rfl⟩
abbrev main_v19 : Ref sig .tc := ⟨.hbm, 38, rfl⟩
abbrev main_v20 : Ref sig .tc := ⟨.hbm, 39, rfl⟩
abbrev main_cst_7 : Ref sig .tc := ⟨.hbm, 40, rfl⟩
abbrev main_call1_v0 : Ref sig .tc := ⟨.hbm, 41, rfl⟩
abbrev main_call1_v1 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c : Ref sig .tc := ⟨.hbm, 46, rfl⟩
abbrev main_v24 : Ref sig .tc := ⟨.hbm, 47, rfl⟩
abbrev main_v25 : Ref sig .tc := ⟨.hbm, 48, rfl⟩
abbrev main_c_8 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_9 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_10 : Ref sig .tc := ⟨.hbm, 61, rfl⟩
abbrev main_v36 : Ref sig .tc := ⟨.hbm, 62, rfl⟩
abbrev main_v37 : Ref sig .tc := ⟨.hbm, 63, rfl⟩
abbrev main_c_11 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_12 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_13 : Ref sig .tc := ⟨.hbm, 77, rfl⟩
abbrev main_v49 : Ref sig .tc := ⟨.hbm, 78, rfl⟩
abbrev main_v50 : Ref sig .tc := ⟨.hbm, 79, rfl⟩
abbrev main_c_14 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_15 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_16 : Ref sig .tc := ⟨.hbm, 92, rfl⟩
abbrev main_v61 : Ref sig .tc := ⟨.hbm, 93, rfl⟩
abbrev main_v62 : Ref sig .tc := ⟨.hbm, 94, rfl⟩
abbrev main_c_17 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_18 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_19 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_20 : Ref sig .tc := ⟨.hbm, 111, rfl⟩
abbrev main_v76 : Ref sig .tc := ⟨.hbm, 112, rfl⟩
abbrev main_cst_21 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_22 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem1_0 : DmaSem sig := 25
abbrev cc4_sem2_0 : DmaSem sig := 26
abbrev cc4_sem3_0 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S20000 : S_.BroadcastsInDim S20000 (![] : Fin 0 → Fin S20000.rank)
  shapeCasts_S100000_S100000x1 : S100000.ShapeCasts S100000x1
  shapeCasts_S20000_S20000x1 : S20000.ShapeCasts S20000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S20000x128 : S_.BroadcastsInDim S20000x128 (![] : Fin 0 → Fin S20000x128.rank)
  bcast_S20000x1_S20000x128_0_1 : S20000x1.BroadcastsInDim S20000x128 (![0, 1] : Fin 2 → Fin S20000x128.rank)
  bcast_S_S100000x128 : S_.BroadcastsInDim S100000x128 (![] : Fin 0 → Fin S100000x128.rank)
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S2_S1x2 : S2.ShapeCasts S1x2
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  inb_S64x2_S64x2_0_0 : ∀ a, (![0, 0] : Fin 2 → Nat) a + S64x2.size a ≤ S64x2.size a
  h_S64x2 : 0 < S64x2.numel
  scatter_S100000_S1600000x1_S1600000_n_0_0_1_wf : ScatterDims.WF S100000 S1600000x1 S1600000 [] [0] [0] 1
  scatter_S20000_S1600000x1_S1600000_n_0_0_1_wf : ScatterDims.WF S20000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S20000x128_S1600000x1_S1600000x128_1_0_0_1_wf : ScatterDims.WF S20000x128 S1600000x1 S1600000x128 [1] [0] [0] 1
  gather_S20000x128_S1600000x1_S1600000x128_1_0_n_n_0_1_1128_wf : GatherDims.WF S20000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x2_S64x2_1_0_0_1_n_n_wf : DotDims.WF S64x128 S128x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x128.size a ≤ S64x128.size a
  hwx4_0 : ∀ i : grid4.Coords, EltTy.bits .f32 = 32 ∨ (Rect.block (s := S64x128) S64x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x2.size a ≤ S128x2.size a
  hwx4_1 : ∀ i : grid4.Coords, EltTy.bits .f32 = 32 ∨ (Rect.block (s := S128x2) S128x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x2.size a ≤ S64x2.size a
  hwx4_3 : ∀ i : grid4.Coords, EltTy.bits .f32 = 32 ∨ (Rect.block (s := S64x2) S64x2.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S20000_S1600000x1_S1600000_n_0_0_1 : ScatterDims S20000 S1600000x1 S1600000 where
  updateWindowDims := []
  insertedWindowDims := [0]
  scatterDimsToOperandDims := [0]
  indexVectorDim := 1
  wf := scatter_S20000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S20000x128_S1600000x1_S1600000x128_1_0_0_1 : ScatterDims S20000x128 S1600000x1 S1600000x128 where
  updateWindowDims := [1]
  insertedWindowDims := [0]
  scatterDimsToOperandDims := [0]
  indexVectorDim := 1
  wf := scatter_S20000x128_S1600000x1_S1600000x128_1_0_0_1_wf
def gather_S20000x128_S1600000x1_S1600000x128_1_0_n_n_0_1_1128 : GatherDims S20000x128 S1600000x1 S1600000x128 where
  offsetDims := [1]
  collapsedSliceDims := [0]
  operandBatchingDims := []
  startIndicesBatchingDims := []
  startIndexMap := [0]
  indexVectorDim := 1
  sliceSizes := ![1, 128]
  wf := gather_S20000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v70) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v71) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v84) S64x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v85) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v86) S64x2.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S20000 : Shape := ⟨1, ![20000]⟩
abbrev S20000x1 : Shape := ⟨2, ![20000, 1]⟩
abbrev S1600000x128 : Shape := ⟨2, ![1600000, 128]⟩
abbrev S20000x128 : Shape := ⟨2, ![20000, 128]⟩
abbrev S100000x1 : Shape := ⟨2, ![100000, 1]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S64x2 : Shape := ⟨2, ![64, 2]⟩
abbrev S1x2 : Shape := ⟨2, ![1, 2]⟩

abbrev nBuf : Space → Nat
  | .hbm => 171
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x2, .f32⟩
  | 8 => ⟨S2, .f32⟩
  | 9 => ⟨S1x1600000, .i32⟩
  | 10 => ⟨S1600000, .i32⟩
  | 11 => ⟨S1x1600000, .i32⟩
  | 12 => ⟨S1600000, .i32⟩
  | 13 => ⟨S100000x128, .f32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S20000, .f32⟩
  | 22 => ⟨S1600000x1, .i32⟩
  | 23 => ⟨S20000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .f32⟩
  | 35 => ⟨S20000, .f32⟩
  | 36 => ⟨S20000, .i1⟩
  | 37 => ⟨S_, .f32⟩
  | 38 => ⟨S20000, .f32⟩
  | 39 => ⟨S20000, .f32⟩
  | 40 => ⟨S_, .f32⟩
  | 41 => ⟨S_, .f32⟩
  | 42 => ⟨S20000, .f32⟩
  | 43 => ⟨S20000, .f32⟩
  | 44 => ⟨S20000x1, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x128, .f32⟩
  | 54 => ⟨S_, .f32⟩
  | 55 => ⟨S20000x128, .f32⟩
  | 56 => ⟨S1600000x1, .i32⟩
  | 57 => ⟨S20000x128, .f32⟩
  | 58 => ⟨S20000x128, .f32⟩
  | 59 => ⟨S20000x128, .f32⟩
  | 60 => ⟨S100000x1, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x128, .f32⟩
  | 70 => ⟨S_, .f32⟩
  | 71 => ⟨S100000x128, .f32⟩
  | 72 => ⟨S1600000x1, .i32⟩
  | 73 => ⟨S100000x128, .f32⟩
  | 74 => ⟨S100000x128, .f32⟩
  | 75 => ⟨S100000x128, .f32⟩
  | 76 => ⟨S1x128, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S100000x128, .f32⟩
  | 83 => ⟨S_, .f32⟩
  | 84 => ⟨S1600000, .f32⟩
  | 85 => ⟨S_, .f32⟩
  | 86 => ⟨S100000, .f32⟩
  | 87 => ⟨S1600000x1, .i32⟩
  | 88 => ⟨S100000, .f32⟩
  | 89 => ⟨S_, .f32⟩
  | 90 => ⟨S20000, .f32⟩
  | 91 => ⟨S1600000x1, .i32⟩
  | 92 => ⟨S20000, .f32⟩
  | 93 => ⟨S_, .f32⟩
  | 94 => ⟨S100000, .f32⟩
  | 95 => ⟨S100000, .i1⟩
  | 96 => ⟨S_, .f32⟩
  | 97 => ⟨S100000, .f32⟩
  | 98 => ⟨S100000, .f32⟩
  | 99 => ⟨S_, .f32⟩
  | 100 => ⟨S_, .f32⟩
  | 101 => ⟨S100000, .f32⟩
  | 102 => ⟨S100000, .f32⟩
  | 103 => ⟨S_, .f32⟩
  | 104 => ⟨S20000, .f32⟩
  | 105 => ⟨S20000, .i1⟩
  | 106 => ⟨S_, .f32⟩
  | 107 => ⟨S20000, .f32⟩
  | 108 => ⟨S20000, .f32⟩
  | 109 => ⟨S_, .f32⟩
  | 110 => ⟨S_, .f32⟩
  | 111 => ⟨S20000, .f32⟩
  | 112 => ⟨S20000, .f32⟩
  | 113 => ⟨S20000x1, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x128, .f32⟩
  | 123 => ⟨S_, .f32⟩
  | 124 => ⟨S20000x128, .f32⟩
  | 125 => ⟨S1600000x1, .i32⟩
  | 126 => ⟨S20000x128, .f32⟩
  | 127 => ⟨S20000x128, .f32⟩
  | _ => ⟨S100000x128, .f32⟩

abbrev hbmTy0_1 (i : Nat) : BufTy := match i % 128 with
  | 0 => ⟨S20000x128, .f32⟩
  | 1 => ⟨S100000x1, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S1600000x128, .f32⟩
  | 11 => ⟨S_, .f32⟩
  | 12 => ⟨S100000x128, .f32⟩
  | 13 => ⟨S1600000x1, .i32⟩
  | 14 => ⟨S100000x128, .f32⟩
  | 15 => ⟨S100000x128, .f32⟩
  | 16 => ⟨S100000x128, .f32⟩
  | 17 => ⟨S1x128, .f32⟩
  | 18 => ⟨S100000x128, .f32⟩
  | 19 => ⟨S100000x128, .f32⟩
  | 20 => ⟨S_, .f32⟩
  | 21 => ⟨S100000x128, .f32⟩
  | 22 => ⟨S100000x128, .f32⟩
  | 23 => ⟨S_, .f32⟩
  | 24 => ⟨S64x128, .f32⟩
  | 25 => ⟨S100000x1, .i32⟩
  | 26 => ⟨S64x128, .f32⟩
  | 27 => ⟨S_, .f32⟩
  | 28 => ⟨S100000, .f32⟩
  | 29 => ⟨S_, .f32⟩
  | 30 => ⟨S64, .f32⟩
  | 31 => ⟨S100000x1, .i32⟩
  | 32 => ⟨S64, .f32⟩
  | 33 => ⟨S_, .f32⟩
  | 34 => ⟨S64, .f32⟩
  | 35 => ⟨S64, .f32⟩
  | 36 => ⟨S64x1, .f32⟩
  | 37 => ⟨S64x128, .f32⟩
  | 38 => ⟨S64x128, .f32⟩
  | 39 => ⟨S64x2, .f32⟩
  | 40 => ⟨S1x2, .f32⟩
  | 41 => ⟨S64x2, .f32⟩
  | 42 => ⟨S64x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_cst_5 : Ref sig .tc := ⟨.hbm, 34, rfl⟩
abbrev main_v17 : Ref sig .tc := ⟨.hbm, 35, rfl⟩
abbrev main_v18 : Ref sig .tc := ⟨.hbm, 36, rfl⟩
abbrev main_cst_6 : Ref sig .tc := ⟨.hbm, 37, rfl⟩
abbrev main_v19 : Ref sig .tc := ⟨.hbm, 38, rfl⟩
abbrev main_v20 : Ref sig .tc := ⟨.hbm, 39, rfl⟩
abbrev main_cst_7 : Ref sig .tc := ⟨.hbm, 40, rfl⟩
abbrev main_call1_v0 : Ref sig .tc := ⟨.hbm, 41, rfl⟩
abbrev main_call1_v1 : Ref sig .tc := ⟨.hbm, 42, rfl⟩
abbrev main_v21 : Ref sig .tc := ⟨.hbm, 43, rfl⟩
abbrev main_v22 : Ref sig .tc := ⟨.hbm, 44, rfl⟩
abbrev main_c : Ref sig .tc := ⟨.hbm, 45, rfl⟩
abbrev main_v23 : Ref sig .tc := ⟨.hbm, 46, rfl⟩
abbrev main_v24 : Ref sig .tc := ⟨.hbm, 47, rfl⟩
abbrev main_c_8 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_9 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_10 : Ref sig .tc := ⟨.hbm, 61, rfl⟩
abbrev main_v36 : Ref sig .tc := ⟨.hbm, 62, rfl⟩
abbrev main_v37 : Ref sig .tc := ⟨.hbm, 63, rfl⟩
abbrev main_c_11 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_12 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_call2_cst : Ref sig .tc := ⟨.hbm, 79, rfl⟩
abbrev main_call2_v0 : Ref sig .tc := ⟨.hbm, 80, rfl⟩
abbrev main_v51 : Ref sig .tc := ⟨.hbm, 81, rfl⟩
abbrev main_v52 : Ref sig .tc := ⟨.hbm, 82, rfl⟩
abbrev main_cst_13 : Ref sig .tc := ⟨.hbm, 83, rfl⟩
abbrev main_v53 : Ref sig .tc := ⟨.hbm, 84, rfl⟩
abbrev main_cst_14 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_15 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_16 : Ref sig .tc := ⟨.hbm, 93, rfl⟩
abbrev main_v60 : Ref sig .tc := ⟨.hbm, 94, rfl⟩
abbrev main_v61 : Ref sig .tc := ⟨.hbm, 95, rfl⟩
abbrev main_cst_17 : Ref sig .tc := ⟨.hbm, 96, rfl⟩
abbrev main_v62 : Ref sig .tc := ⟨.hbm, 97, rfl⟩
abbrev main_v63 : Ref sig .tc := ⟨.hbm, 98, rfl⟩
abbrev main_cst_18 : Ref sig .tc := ⟨.hbm, 99, rfl⟩
abbrev main_call3_v0 : Ref sig .tc := ⟨.hbm, 100, rfl⟩
abbrev main_call3_v1 : Ref sig .tc := ⟨.hbm, 101, rfl⟩
abbrev main_v64 : Ref sig .tc := ⟨.hbm, 102, rfl⟩
abbrev main_cst_19 : Ref sig .tc := ⟨.hbm, 103, rfl⟩
abbrev main_v65 : Ref sig .tc := ⟨.hbm, 104, rfl⟩
abbrev main_v66 : Ref sig .tc := ⟨.hbm, 105, rfl⟩
abbrev main_cst_20 : Ref sig .tc := ⟨.hbm, 106, rfl⟩
abbrev main_v67 : Ref sig .tc := ⟨.hbm, 107, rfl⟩
abbrev main_v68 : Ref sig .tc := ⟨.hbm, 108, rfl⟩
abbrev main_cst_21 : Ref sig .tc := ⟨.hbm, 109, rfl⟩
abbrev main_call4_v0 : Ref sig .tc := ⟨.hbm, 110, rfl⟩
abbrev main_call4_v1 : Ref sig .tc := ⟨.hbm, 111, rfl⟩
abbrev main_v69 : Ref sig .tc := ⟨.hbm, 112, rfl⟩
abbrev main_v70 : Ref sig .tc := ⟨.hbm, 113, rfl⟩
abbrev main_c_22 : Ref sig .tc := ⟨.hbm, 114, rfl⟩
abbrev main_v71 : Ref sig .tc := ⟨.hbm, 115, rfl⟩
abbrev main_v72 : Ref sig .tc := ⟨.hbm, 116, rfl⟩
abbrev main_c_23 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_cst_24 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_c_25 : Ref sig .tc := ⟨.hbm, 130, rfl⟩
abbrev main_v84 : Ref sig .tc := ⟨.hbm, 131, rfl⟩
abbrev main_v85 : Ref sig .tc := ⟨.hbm, 132, rfl⟩
abbrev main_c_26 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_cst_27 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_call5_cst : Ref sig .tc := ⟨.hbm, 148, rfl⟩
abbrev main_call5_v0 : Ref sig .tc := ⟨.hbm, 149, rfl⟩
abbrev main_v99 : Ref sig .tc := ⟨.hbm, 150, rfl⟩
abbrev main_cst_28 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_cst_29 : Ref sig .tc := ⟨.hbm, 155, rfl⟩
abbrev main_v103 : Ref sig .tc := ⟨.hbm, 156, rfl⟩
abbrev main_cst_30 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_cst_31 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S20000 : S_.BroadcastsInDim S20000 (![] : Fin 0 → Fin S20000.rank)
  bcast_S20000_S20000x1_0 : S20000.BroadcastsInDim S20000x1 (![0] : Fin 1 → Fin S20000x1.rank)
  bcast_S_S20000x128 : S_.BroadcastsInDim S20000x128 (![] : Fin 0 → Fin S20000x128.rank)
  bcast_S20000x1_S20000x128_0_1 : S20000x1.BroadcastsInDim S20000x128 (![0, 1] : Fin 2 → Fin S20000x128.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  scatter_S20000_S1600000x1_S1600000_n_0_0_1_wf : ScatterDims.WF S20000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S20000x128_S1600000x1_S1600000x128_1_0_0_1_wf : ScatterDims.WF S20000x128 S1600000x1 S1600000x128 [1] [0] [0] 1
  gather_S20000x128_S1600000x1_S1600000x128_1_0_n_n_0_1_1128_wf : GatherDims.WF S20000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x2_S64x2_1_0_0_1_n_n_wf : DotDims.WF S64x128 S128x2 S64x2 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S20000_S1600000x1_S1600000_n_0_0_1 : ScatterDims S20000 S1600000x1 S1600000 where
  updateWindowDims := []
  insertedWindowDims := [0]
  scatterDimsToOperandDims := [0]
  indexVectorDim := 1
  wf := scatter_S20000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S20000x128_S1600000x1_S1600000x128_1_0_0_1 : ScatterDims S20000x128 S1600000x1 S1600000x128 where
  updateWindowDims := [1]
  insertedWindowDims := [0]
  scatterDimsToOperandDims := [0]
  indexVectorDim := 1
  wf := scatter_S20000x128_S1600000x1_S1600000x128_1_0_0_1_wf
def gather_S20000x128_S1600000x1_S1600000x128_1_0_n_n_0_1_1128 : GatherDims S20000x128 S1600000x1 S1600000x128 where
  offsetDims := [1]
  collapsedSliceDims := [0]
  operandBatchingDims := []
  startIndicesBatchingDims := []
  startIndexMap := [0]
  indexVectorDim := 1
  sliceSizes := ![1, 128]
  wf := gather_S20000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

class Facts : Prop extends Facts₀ where

variable [Facts]
-- ==== Proof.KRun.lean ====
/-
  The idealized kernel program's run with every buffer named. Every weakly fair execution of the program terminates without
  a fault, and in the final state every buffer that lives across the whole program holds what the last segment boundary's
  contents say: the launch memory pushed through the host operations and the five launches in program order. In particular
  the result buffer holds the last launch's output array, and the nine arguments hold what they were launched with.
-/
import proofs.«174854_j3298534884164_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: in every final state each buffer that lives across the program is at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- The run with the result and the arguments named. -/
theorem run_main : θ_run defs (onTc (τ := τ) (main (F := F))) ⟨m, fun _ => 0, ρ⟩ (fun r => ∀ c : Dev nD,
      r.2.mem ((c.tc : Thread nD τ).loc main_v86) = W13 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨h c _ (mem_uc main_v86 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c)⟩)
    (run_all m ρ)

end Cert.KernelIdeal.KRun

end
-- ==== Proof.Spec.lean ====
/-
  The three dense layers of the network as functions of whole matrices over the extended reals, entry by entry.

  * `matProd x w`: the matrix product, entry (a, b) the sum over k of x(a,k) · w(k,b).
  * `scaleShiftRelu g d r`: row a of `g` scaled by the a-th entry of the one-column matrix `d`, the one-row matrix `r` added
    to every row, and the result cut below at the value of the zero word.
  * `affine p w r`: the matrix product with the one-row matrix `r` added to every row.
-/
import Idealize.ShloMosaic.PureOps.Ideal
import Idealize.ShloMosaic.Lib.ValueIdx

noncomputable section

namespace Cert.Spec

open Idealize.ShloMosaic Idealize.ShloMosaic.ValueIdx

/-- A matrix of extended reals with `A` rows and `B` columns. -/
abbrev Mat (A B : ℕ) := (⟨2, ![A, B]⟩ : Shape).Idx → EReal

/-- The matrix product. -/
def matProd {A K B : ℕ} (x : Mat A K) (w : Mat K B) : Mat A B :=
  fun j => ∑ k : Fin K, x (ix2 (j 0) k) * w (ix2 k (j 1))

/-- Rows scaled by a column of factors, a row of offsets added, cut below at the zero word's value. -/
def scaleShiftRelu {A B : ℕ} (g : Mat A B) (d : Mat A 1) (r : Mat 1 B) : Mat A B :=
  fun j => max (d (ix2 (j 0) (0 : Fin 1)) * g j + r (ix2 (0 : Fin 1) (j 1))) (Ideal.ofBits .f32 0x00000000#32)

/-- The matrix product with a row of offsets added to every row. -/
def affine {A K B : ℕ} (p : Mat A K) (w : Mat K B) (r : Mat 1 B) : Mat A B :=
  fun j => matProd p w j + r (ix2 (0 : Fin 1) (j 1))

theorem matProd_apply {A K B : ℕ} (x : Mat A K) (w : Mat K B) (a : Fin A) (b : Fin B) :
    matProd x w (ix2 a b) = ∑ k : Fin K, x (ix2 a k) * w (ix2 k b) := rfl

theorem scaleShiftRelu_apply {A B : ℕ} (g : Mat A B) (d : Mat A 1) (r : Mat 1 B) (a : Fin A) (b : Fin B) :
    scaleShiftRelu g d r (ix2 a b)
      = max (d (ix2 a (0 : Fin 1)) * g (ix2 a b) + r (ix2 (0 : Fin 1) b)) (Ideal.ofBits .f32 0x00000000#32) := rfl

theorem affine_apply {A K B : ℕ} (p : Mat A K) (w : Mat K B) (r : Mat 1 B) (a : Fin A) (b : Fin B) :
    affine p w r (ix2 a b) = (∑ k : Fin K, p (ix2 a k) * w (ix2 k b)) + r (ix2 (0 : Fin 1) b) := rfl

end Cert.Spec

end
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.Region0.lean ====
/-
  The first projection. The launch walks the 100000 rows of its left operand in 20 blocks of 5000 rows; at each block the
  body multiplies the block by the whole 128 x 128 right operand (both rounded to the narrow float format first, which over
  the extended reals changes nothing) into a zero accumulator and stores the product as the same rows of the result.
  So entry (a, b) of the result is the sum over k of left(a, k) · right(k, b): the result is the matrix product of the two
  arrays the launch finds, whatever they are.
-/
import proofs.«174854_j3298534884164_1_alg».proof.Proof.Gen.KernelIdeal.Frame
import proofs.«174854_j3298534884164_1_alg».proof.Proof.Spec
import proofs.«174854_j3298534884164_1_alg».proof.Proof.LibColumnBlocks
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of a block: row p of the left block against column q of the right operand. -/
theorem pay_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  exact Cert.LibColumnBlocks.matmul_zero_apply dot_S5000x128_S128x128_S5000x128_1_0_0_1_n_n rfl rfl rfl rfl
    (fun j k => by
      unfold DotDims.lhsIdx
      rw [dif_neg (show ¬(0 : Fin S5000x128.rank) ∈ dot_S5000x128_S128x128_S5000x128_1_0_0_1_n_n.lhsBatch by decide),
        dif_pos (show (0 : Fin S5000x128.rank) ∈ dot_S5000x128_S128x128_S5000x128_1_0_0_1_n_n.lhsNonContracting by decide)]
      rfl)
    (fun j k => by
      unfold DotDims.rhsIdx
      rw [dif_neg (show ¬(1 : Fin S128x128.rank) ∈ dot_S5000x128_S128x128_S5000x128_1_0_0_1_n_n.rhsBatch by decide),
        dif_pos (show (1 : Fin S128x128.rank) ∈ dot_S5000x128_S128x128_S5000x128_1_0_0_1_n_n.rhsNonContracting by decide)]
      rfl)
    (truncf .bf16 x0 bitsLt_bf16_f32) (truncf .bf16 x1 bitsLt_bf16_f32) p q none

/-- Where the blocks sit: point t takes rows 5000 t … of the left operand and of the result, and the whole right operand. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t, entry (p, k), is the array's entry (5000 t + p, k). -/
theorem left_apply (c : Dev nD) (t : Fin cfg0.N) (p : Fin 5000) (k : Fin 128) (i : S100000x128.Idx)
    (h0 : (i 0).val = t.val * 5000 + p.val) (h1 : (i 1).val = k.val) :
    (iblk0 V c 0 t : Vec Ideal S5000x128 .f32) (ix2 p k) = (V c main_arg0 : S100000x128.Idx → EReal) i := by
  obtain ⟨e0, e1, -, -, -, -⟩ := idx_facts t
  unfold iblk0
  rw [View.read_apply]
  show V c main_arg0 _ = V c main_arg0 _
  refine congrArg _ (funext fun a => Fin.ext ?_)
  match a with
  | ⟨0, _⟩ => show win0_0.index t (0 : Fin 2) * 5000 + 1 * p.val = (i 0).val; rw [e0, h0]; omega
  | ⟨1, _⟩ => show win0_0.index t (1 : Fin 2) * 128 + 1 * k.val = (i 1).val; rw [e1, h1]; omega

/-- The right operand's block at any point is the whole array. -/
theorem right_apply (c : Dev nD) (t : Fin cfg0.N) (k : Fin 128) (q : Fin 128) :
    (iblk0 V c 1 t : Vec Ideal S128x128 .f32) (ix2 k q) = (V c main_arg3 : S128x128.Idx → EReal) (ix2 k q) := by
  obtain ⟨-, -, e2, e3, -, -⟩ := idx_facts t
  unfold iblk0
  rw [View.read_apply]
  show V c main_arg3 _ = V c main_arg3 _
  refine congrArg _ (funext fun a => Fin.ext ?_)
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- What point t writes back is block t of the product of the two arrays. -/
theorem flushed_eq (c : Dev nD) (t : Fin cfg0.N) :
    (dat0 V c).flushed 2 t = ((cfg0.win 2).blk t).view.read (Elt Ideal)
      (Cert.Spec.matProd (A := 100000) (K := 128) (B := 128) (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e4, e5⟩ := idx_facts t
  funext y
  obtain ⟨p, q, rfl⟩ : ∃ (p : Fin 5000) (q : Fin 128), y = ix2 p q := ⟨y 0, y 1, eq_ix2 y⟩
  rw [View.read_apply]
  refine (pay_apply (iblk0 V c 0 t) (iblk0 V c 1 t) p q).trans ?_
  unfold Cert.Spec.matProd
  refine Finset.sum_congr rfl fun k _ => ?_
  rw [right_apply V c t k q]
  refine congrArg₂ (· * ·) (left_apply V c t p k _ ?_ ?_) (congrArg _ (funext fun a => Fin.ext ?_))
  · show win0_2.index t (0 : Fin 2) * 5000 + 1 * p.val = t.val * 5000 + p.val; rw [e4]; omega
  · rfl
  · match a with
    | ⟨0, _⟩ => rfl
    | ⟨1, _⟩ => show q.val = win0_2.index t (1 : Fin 2) * 128 + 1 * q.val; rw [e5]; omega

/-- An index of the result is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v23).slice (win0_2.rect t)).set ↔ _
  rw [View.set_slice_whole, Rect.mem_set_unit]
  exact Iff.rfl

/-- Every entry of the result is written by the point that owns its row. -/
theorem cover (i : S100000x128.Idx) : ∃ t : Fin cfg0.N, (cfg0.win 2).flush t = true ∧ i ∈ ((cfg0.win 2).blk t).view.set := by
  have hN : cfg0.N = 20 := N_0
  have hi0 : (i 0).val < 100000 := (i 0).isLt
  have hi1 : (i 1).val < 128 := (i 1).isLt
  refine ⟨⟨(i 0).val / 5000, by rw [hN]; omega⟩, flush0_2 _, ?_⟩
  rw [mem_blk]
  obtain ⟨-, -, -, -, e4, e5⟩ := idx_facts ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

/-- THE RESULT ARRAY after the launch: the product of the two arrays the launch finds. -/
theorem final (c : Dev nD) : (dat0 V c).arrAt 2 cfg0.N
    = Cert.Spec.matProd (A := 100000) (K := 128) (B := 128) (V c main_arg0) (V c main_arg3) :=
  (dat0 V c).arrAt_eq_of_cover 2 _ (fun t _ => flushed_eq V c t) cover

end Cert.KernelIdeal.Region0

end
-- ==== Proof.LibBlockRows.lean ====
/-
  Small facts about row-blocked arrays, used when a blockwise computation is read as one whole-array function.

  * The offsets `![0, 0]` of a whole-block access are the zero function.
  * A one-column array broadcast along the columns reads, at `(p, c)`, its entry `(p, 0)`.
-/
import Idealize.ShloMosaic.Lib.ValueIdx
import Idealize.ShloMosaic.Lib.ValueLayout
import Idealize.ShloMosaic.Lib.Pipeline.Value

namespace Cert.LibBlockRows

open Idealize.ShloMosaic Idealize.ShloMosaic.ValueIdx

variable {α : Type}

/-- The offsets of an access at the block's origin, as the zero function. -/
theorem zero_offsets : (![0, 0] : Fin 2 → Nat) = fun _ => 0 := funext fun a => by fin_cases a <;> rfl

/-- One column broadcast over many: the result at `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibBlockRows
-- ==== Proof.Region1.lean ====
/-
  A normalise / offset / cut launch. It walks the 100000 rows of the aggregated features in 20 blocks of 5000 rows, with the
  matching 5000 entries of the one-column array of row factors, and the whole one-row array of offsets. At each block the body
  stretches the factor column and the offset row over the block, multiplies, adds, and takes the maximum with the zero word.
  So entry (a, b) of the result is max(factor(a) · features(a, b) + offset(b), zero), whatever arrays the launch finds.
-/
import proofs.«174854_j3298534884164_1_alg».proof.Proof.Gen.KernelIdeal.Frame
import proofs.«174854_j3298534884164_1_alg».proof.Proof.Spec
import proofs.«174854_j3298534884164_1_alg».proof.Proof.LibBlockRows
import Idealize.ShloMosaic.Lib.Pipeline.Value
import Idealize.ShloMosaic.Lib.ValueLayout

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of a block. -/
theorem pay_apply (v0 : Vec Ideal S5000x1 .f32) (v4 : Vec Ideal S1x128 .f32) (v8 : Vec Ideal S5000x128 .f32) (p : Fin 5000) (q : Fin 128) :
    k1_pay1 v0 v4 v8 (ix2 p q)
      = max (v0 (ix2 p (0 : Fin 1)) * v8 (ix2 p q) + v4 (ix2 (0 : Fin 1) q)) (Ideal.ofBits .f32 0x00000000#32) := by
  unfold k1_pay1
  simp only [shapeCast_self]
  show max ((broadcastTo S5000x128 v0 broadcasts_S5000x1_S5000x128 (ix2 p q)) * v8 (ix2 p q)
      + broadcastTo S5000x128 v4 broadcasts_S1x128_S5000x128 (ix2 p q)) _ = _
  rw [Cert.LibBlockRows.broadcastTo_a1_ab_apply, broadcastTo_1b_ab_apply]
  rfl

/-- Where the blocks sit: point t takes rows 5000 t … of the features, of the factor column and of the result, and the
    whole offset row. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The features' block at point t, entry (p, q), is the array's entry (5000 t + p, q). -/
theorem feat_apply (c : Dev nD) (t : Fin cfg1.N) (p : Fin 5000) (q : Fin 128) (i : S100000x128.Idx)
    (h0 : (i 0).val = t.val * 5000 + p.val) (h1 : (i 1).val = q.val) :
    (iblk1 V c 0 t : Vec Ideal S5000x128 .f32) (ix2 p q) = (V c main_v45 : S100000x128.Idx → EReal) i := by
  obtain ⟨e0, e1, -, -, -, -, -, -⟩ := idx_facts t
  unfold iblk1
  rw [View.read_apply]
  show V c main_v45 _ = V c main_v45 _
  refine congrArg _ (funext fun a => Fin.ext ?_)
  match a with
  | ⟨0, _⟩ => show win1_0.index t (0 : Fin 2) * 5000 + 1 * p.val = (i 0).val; rw [e0, h0]; omega
  | ⟨1, _⟩ => show win1_0.index t (1 : Fin 2) * 128 + 1 * q.val = (i 1).val; rw [e1, h1]; omega

/-- The factor column's block at point t, entry (p, 0), is the array's entry (5000 t + p, 0). -/
theorem factor_apply (c : Dev nD) (t : Fin cfg1.N) (p : Fin 5000) (i : S100000x1.Idx)
    (h0 : (i 0).val = t.val * 5000 + p.val) (h1 : (i 1).val = 0) :
    (iblk1 V c 1 t : Vec Ideal S5000x1 .f32) (ix2 p (0 : Fin 1)) = (V c main_v16 : S100000x1.Idx → EReal) i := by
  obtain ⟨-, -, e2, e3, -, -, -, -⟩ := idx_facts t
  unfold iblk1
  rw [View.read_apply]
  show V c main_v16 _ = V c main_v16 _
  refine congrArg _ (funext fun a => Fin.ext ?_)
  match a with
  | ⟨0, _⟩ => show win1_1.index t (0 : Fin 2) * 5000 + 1 * p.val = (i 0).val; rw [e2, h0]; omega
  | ⟨1, _⟩ => show win1_1.index t (1 : Fin 2) * 1 + 1 * 0 = (i 1).val; rw [e3, h1]

/-- The offset row's block at any point is the whole array. -/
theorem offset_apply (c : Dev nD) (t : Fin cfg1.N) (q : Fin 128) :
    (iblk1 V c 2 t : Vec Ideal S1x128 .f32) (ix2 (0 : Fin 1) q) = (V c main_v46 : S1x128.Idx → EReal) (ix2 (0 : Fin 1) q) := by
  obtain ⟨-, -, -, -, e4, e5, -, -⟩ := idx_facts t
  unfold iblk1
  rw [View.read_apply]
  show V c main_v46 _ = V c main_v46 _
  refine congrArg _ (funext fun a => Fin.ext ?_)
  match a with
  | ⟨0, _⟩ => show win1_2.index t (0 : Fin 2) * 1 + 1 * 0 = 0; rw [e4]
  | ⟨1, _⟩ => show win1_2.index t (1 : Fin 2) * 128 + 1 * q.val = q.val; rw [e5]; omega

set_option maxHeartbeats 1600000 in
/-- What point t writes back is block t of the normalised, offset and cut features. -/
theorem flushed_eq (c : Dev nD) (t : Fin cfg1.N) :
    (dat1 V c).flushed 3 t = ((cfg1.win 3).blk t).view.read (Elt Ideal)
      (Cert.Spec.scaleShiftRelu (A := 100000) (B := 128) (V c main_v45) (V c main_v16) (V c main_v46)) := by
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz, View.ld_unit_zero (S := S1x128) hz]
  obtain ⟨-, -, -, -, -, -, e6, e7⟩ := idx_facts t
  funext y
  obtain ⟨p, q, rfl⟩ : ∃ (p : Fin 5000) (q : Fin 128), y = ix2 p q := ⟨y 0, y 1, eq_ix2 y⟩
  rw [View.read_apply]
  refine (pay_apply (iblk1 V c 1 t) (iblk1 V c 2 t) (iblk1 V c 0 t) p q).trans ?_
  unfold Cert.Spec.scaleShiftRelu
  have h0 : ((((cfg1.win 3).blk t).view.emb (ix2 p q)) 0).val = t.val * 5000 + p.val := by
    show win1_3.index t (0 : Fin 2) * 5000 + 1 * p.val = t.val * 5000 + p.val; rw [e6]; omega
  have h1 : ((((cfg1.win 3).blk t).view.emb (ix2 p q)) 1).val = q.val := by
    show win1_3.index t (1 : Fin 2) * 128 + 1 * q.val = q.val; rw [e7]; omega
  rw [feat_apply V c t p q _ h0 h1, factor_apply V c t p (ix2 ((((cfg1.win 3).blk t).view.emb (ix2 p q)) 0) (0 : Fin 1)) h0 rfl,
    offset_apply V c t q]
  refine congrArg (fun z => max (_ + (V c main_v46 : S1x128.Idx → EReal) z) _) (funext fun a => Fin.ext ?_)
  match a with
  | ⟨0, _⟩ => rfl
  | ⟨1, _⟩ => exact h1.symm

/-- An index of the result is in point t's block iff each coordinate is in the block's range on its axis. -/
theorem mem_blk (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v47).slice (win1_3.rect t)).set ↔ _
  rw [View.set_slice_whole, Rect.mem_set_unit]
  exact Iff.rfl

/-- Every entry of the result is written by the point that owns its row. -/
theorem cover (i : S100000x128.Idx) : ∃ t : Fin cfg1.N, (cfg1.win 3).flush t = true ∧ i ∈ ((cfg1.win 3).blk t).view.set := by
  have hN : cfg1.N = 20 := N_1
  have hi0 : (i 0).val < 100000 := (i 0).isLt
  have hi1 : (i 1).val < 128 := (i 1).isLt
  refine ⟨⟨(i 0).val / 5000, by rw [hN]; omega⟩, flush1_3 _, ?_⟩
  rw [mem_blk]
  obtain ⟨-, -, -, -, -, -, e6, e7⟩ := idx_facts ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e6]; show (i 0).val / 5000 * 5000 ≤ (i 0).val ∧ (i 0).val < (i 0).val / 5000 * 5000 + 5000; omega
  | ⟨1, _⟩ =>
    show win1_3.index _ (1 : Fin 2) * 128 ≤ (i 1).val ∧ (i 1).val < win1_3.index _ (1 : Fin 2) * 128 + 128
    rw [e7]; omega

/-- THE RESULT ARRAY after the launch. -/
theorem final (c : Dev nD) : (dat1 V c).arrAt 3 cfg1.N
    = Cert.Spec.scaleShiftRelu (A := 100000) (B := 128) (V c main_v45) (V c main_v16) (V c main_v46) :=
  (dat1 V c).arrAt_eq_of_cover 3 _ (fun t _ => flushed_eq V c t) cover

end Cert.KernelIdeal.Region1

end
-- ==== Proof.Region2.lean ====
/-
  The second projection, of the first layer's output. The launch walks the 100000 rows of its left operand in 20 blocks of 5000 rows; at each block the
  body multiplies the block by the whole 128 x 128 right operand (both rounded to the narrow float format first, which over
  the extended reals changes nothing) into a zero accumulator and stores the product as the same rows of the result.
  So entry (a, b) of the result is the sum over k of left(a, k) · right(k, b): the result is the matrix product of the two
  arrays the launch finds, whatever they are.
-/
import proofs.«174854_j3298534884164_1_alg».proof.Proof.Gen.KernelIdeal.Frame
import proofs.«174854_j3298534884164_1_alg».proof.Proof.Spec
import proofs.«174854_j3298534884164_1_alg».proof.Proof.LibColumnBlocks
import Idealize.ShloMosaic.Lib.Pipeline.Value

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of a block: row p of the left block against column q of the right operand. -/
theorem pay_apply (x0 : Vec Ideal S5000x128 .f32) (x1 : Vec Ideal S128x128 .f32) (p : Fin 5000) (q : Fin 128) :
    k2_pay1 x0 x1 (ix2 p q) = ∑ k : Fin 128, x0 (ix2 p k) * x1 (ix2 k q) := by
  unfold k2_pay1
  simp only [shapeCast_self]
  exact Cert.LibColumnBlocks.matmul_zero_apply dot_S5000x128_S128x128_S5000x128_1_0_0_1_n_n rfl rfl rfl rfl
    (fun j k => by
      unfold DotDims.lhsIdx
      rw [dif_neg (show ¬(0 : Fin S5000x128.rank) ∈ dot_S5000x128_S128x128_S5000x128_1_0_0_1_n_n.lhsBatch by decide),
        dif_pos (show (0 : Fin S5000x128.rank) ∈ dot_S5000x128_S128x128_S5000x128_1_0_0_1_n_n.lhsNonContracting by decide)]
      rfl)
    (fun j k => by
      unfold DotDims.rhsIdx
      rw [dif_neg (show ¬(1 : Fin S128x128.rank) ∈ dot_S5000x128_S128x128_S5000x128_1_0_0_1_n_n.rhsBatch by decide),
        dif_pos (show (1 : Fin S128x128.rank) ∈ dot_S5000x128_S128x128_S5000x128_1_0_0_1_n_n.rhsNonContracting by decide)]
      rfl)
    (truncf .bf16 x0 bitsLt_bf16_f32) (truncf .bf16 x1 bitsLt_bf16_f32) p q none

/-- Where the blocks sit: point t takes rows 5000 t … of the left operand and of the result, and the whole right operand. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point t, entry (p, k), is the array's entry (5000 t + p, k). -/
theorem left_apply (c : Dev nD) (t : Fin cfg2.N) (p : Fin 5000) (k : Fin 128) (i : S100000x128.Idx)
    (h0 : (i 0).val = t.val * 5000 + p.val) (h1 : (i 1).val = k.val) :
    (iblk2 V c 0 t : Vec Ideal S5000x128 .f32) (ix2 p k) = (V c main_v47 : S100000x128.Idx → EReal) i := by
  obtain ⟨e0, e1, -, -, -, -⟩ := idx_facts t
  unfold iblk2
  rw [View.read_apply]
  show V c main_v47 _ = V c main_v47 _
  refine congrArg _ (funext fun a => Fin.ext ?_)
  match a with
  | ⟨0, _⟩ => show win2_0.index t (0 : Fin 2) * 5000 + 1 * p.val = (i 0).val; rw [e0, h0]; omega
  | ⟨1, _⟩ => show win2_0.index t (1 : Fin 2) * 128 + 1 * k.val = (i 1).val; rw [e1, h1]; omega

/-- The right operand's block at any point is the whole array. -/
theorem right_apply (c : Dev nD) (t : Fin cfg2.N) (k : Fin 128) (q : Fin 128) :
    (iblk2 V c 1 t : Vec Ideal S128x128 .f32) (ix2 k q) = (V c main_arg5 : S128x128.Idx → EReal) (ix2 k q) := by
  obtain ⟨-, -, e2, e3, -, -⟩ := idx_facts t
  unfold iblk2
  rw [View.read_apply]
  show V c main_arg5 _ = V c main_arg5 _
  refine congrArg _ (funext fun a => Fin.ext ?_)
  match a with
  | ⟨0, _⟩ => show win2_1.index t (0 : Fin 2) * 128 + 1 * k.val = k.val; rw [e2]; omega
  | ⟨1, _⟩ => show win2_1.index t (1 : Fin 2) * 128 + 1 * q.val = q.val; rw [e3]; omega

/-- What point t writes back is block t of the product of the two arrays. -/
theorem flushed_eq (c : Dev nD) (t : Fin cfg2.N) :
    (dat2 V c).flushed 2 t = ((cfg2.win 2).blk t).view.read (Elt Ideal)
      (Cert.Spec.matProd (A := 100000) (K := 128) (B := 128) (V c main_v47) (V c main_arg5)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨-, -, -, -, e4, e5⟩ := idx_facts t
  funext y
  obtain ⟨p, q, rfl⟩ : ∃ (p : Fin 5000) (q : Fin 128), y = ix2 p q := ⟨y 0, y 1, eq_ix2 y⟩
  rw [View.read_apply]
  refine (pay_apply (iblk2 V c 0 t) (iblk2 V c 1 t) p q).trans ?_
  unfold Cert.Spec.matProd
  refine Finset.sum_congr rfl fun k _ => ?_
  rw [right_apply V c t k q]
  refine congrArg₂ (· * ·) (left_apply V c t p k _ ?_ ?_) (congrArg _ (funext fun a => Fin.ext ?_))
  · show win2_2.index t (0 : Fin 2) * 5000 + 1 * p.val = t.val * 5000 + p.val; rw [e4]; omega
  · rfl
  · match a with
    | ⟨0, _⟩ => rfl
    | ⟨1, _⟩ => show q.val = win2_2.index t (1 : Fin 2) * 128 + 1 * q.val; rw [e5]; omega

/-- An index of the result is in point t's block iff each coordinate is in the block's range on its axis. -/
theorem mem_blk (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v48).slice (win2_2.rect t)).set ↔ _
  rw [View.set_slice_whole, Rect.mem_set_unit]
  exact Iff.rfl

/-- Every entry of the result is written by the point that owns its row. -/
theorem cover (i : S100000x128.Idx) : ∃ t : Fin cfg2.N, (cfg2.win 2).flush t = true ∧ i ∈ ((cfg2.win 2).blk t).view.set := by
  have hN : cfg2.N = 20 := N_2
  have hi0 : (i 0).val < 100000 := (i 0).isLt
  have hi1 : (i 1).val < 128 := (i 1).isLt
  refine ⟨⟨(i 0).val / 5000, by rw [hN]; omega⟩, flush2_2 _, ?_⟩
  rw [mem_blk]
  obtain ⟨-, -, -, -, e4, e5⟩ := idx_facts ⟨(i 0).val / 5000, by rw [hN]; omega⟩
  intro a
  match a with
  | ⟨0, _⟩ =>
    show win2_2.index _ (0 : Fin 2) * 5000 ≤ (i 0).val ∧ (i 0).val < win2_2.index _ (0 : Fin 2) * 5000 + 5000
    rw [e4]; show (i 0).val / 5000 * 5000 ≤ (i 0).val ∧ (i 0).val < (i 0).val / 5000 * 5000 + 5000; omega
  | ⟨1, _⟩ =>
    show win2_2.index _ (1 : Fin 2) * 128 ≤ (i 1).val ∧ (i 1).val < win2_2.index _ (1 : Fin 2) * 128 + 128
    rw [e5]; omega

/-- THE RESULT ARRAY after the launch: the product of the two arrays the launch finds. -/
theorem final (c : Dev nD) : (dat2 V c).arrAt 2 cfg2.N
    = Cert.Spec.matProd (A := 100000) (K := 128) (B := 128) (V c main_v47) (V c main_arg5) :=
  (dat2 V c).arrAt_eq_of_cover 2 _ (fun t _ => flushed_eq V c t) cover

end Cert.KernelIdeal.Region2

end
-- ==== Proof.Region3.lean ====
/-
  A normalise / offset / cut launch. It walks the 100000 rows of the aggregated features in 20 blocks of 5000 rows, with the
  matching 5000 entries of the one-column array of row factors, and the whole one-row array of offsets. At each block the body
  stretches the factor column and the offset row over the block, multiplies, adds, and takes the maximum with the zero word.
  So entry (a, b) of the result is max(factor(a) · features(a, b) + offset(b), zero), whatever arrays the launch finds.
-/
import proofs.«174854_j3298534884164_1_alg».proof.Proof.Gen.KernelIdeal.Frame
import proofs.«174854_j3298534884164_1_alg».proof.Proof.Spec
import proofs.«174854_j3298534884164_1_alg».proof.Proof.LibBlockRows
import Idealize.ShloMosaic.Lib.Pipeline.Value
import Idealize.ShloMosaic.Lib.ValueLayout

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of a block. -/
theorem pay_apply (v0 : Vec Ideal S5000x1 .f32) (v4 : Vec Ideal S1x128 .f32) (v8 : Vec Ideal S5000x128 .f32) (p : Fin 5000) (q : Fin 128) :
    k3_pay1 v0 v4 v8 (ix2 p q)
      = max (v0 (ix2 p (0 : Fin 1)) * v8 (ix2 p q) + v4 (ix2 (0 : Fin 1) q)) (Ideal.ofBits .f32 0x00000000#32) := by
  unfold k3_pay1
  simp only [shapeCast_self]
  show max ((broadcastTo S5000x128 v0 broadcasts_S5000x1_S5000x128 (ix2 p q)) * v8 (ix2 p q)
      + broadcastTo S5000x128 v4 broadcasts_S1x128_S5000x128 (ix2 p q)) _ = _
  rw [Cert.LibBlockRows.broadcastTo_a1_ab_apply, broadcastTo_1b_ab_apply]
  rfl

/-- Where the blocks sit: point t takes rows 5000 t … of the features, of the factor column and of the result, and the
    whole offset row. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The features' block at point t, entry (p, q), is the array's entry (5000 t + p, q). -/
theorem feat_apply (c : Dev nD) (t : Fin cfg3.N) (p : Fin 5000) (q : Fin 128) (i : S100000x128.Idx)
    (h0 : (i 0).val = t.val * 5000 + p.val) (h1 : (i 1).val = q.val) :
    (iblk3 V c 0 t : Vec Ideal S5000x128 .f32) (ix2 p q) = (V c main_v70 : S100000x128.Idx → EReal) i := by
  obtain ⟨e0, e1, -, -, -, -, -, -⟩ := idx_facts t
  unfold iblk3
  rw [View.read_apply]
  show V c main_v70 _ = V c main_v70 _
  refine congrArg _ (funext fun a => Fin.ext ?_)
  match a with
  | ⟨0, _⟩ => show win3_0.index t (0 : Fin 2) * 5000 + 1 * p.val = (i 0).val; rw [e0, h0]; omega
  | ⟨1, _⟩ => show win3_0.index t (1 : Fin 2) * 128 + 1 * q.val = (i 1).val; rw [e1, h1]; omega

/-- The factor column's block at point t, entry (p, 0), is the array's entry (5000 t + p, 0). -/
theorem factor_apply (c : Dev nD) (t : Fin cfg3.N) (p : Fin 5000) (i : S100000x1.Idx)
    (h0 : (i 0).val = t.val * 5000 + p.val) (h1 : (i 1).val = 0) :
    (iblk3 V c 1 t : Vec Ideal S5000x1 .f32) (ix2 p (0 : Fin 1)) = (V c main_v16 : S100000x1.Idx → EReal) i := by
  obtain ⟨-, -, e2, e3, -, -, -, -⟩ := idx_facts t
  unfold iblk3
  rw [View.read_apply]
  show V c main_v16 _ = V c main_v16 _
  refine congrArg _ (funext fun a => Fin.ext ?_)
  match a with
  | ⟨0, _⟩ => show win3_1.index t (0 : Fin 2) * 5000 + 1 * p.val = (i 0).val; rw [e2, h0]; omega
  | ⟨1, _⟩ => show win3_1.index t (1 : Fin 2) * 1 + 1 * 0 = (i 1).val; rw [e3, h1]

/-- The offset row's block at any point is the whole array. -/
theorem offset_apply (c : Dev nD) (t : Fin cfg3.N) (q : Fin 128) :
    (iblk3 V c 2 t : Vec Ideal S1x128 .f32) (ix2 (0 : Fin 1) q) = (V c main_v71 : S1x128.Idx → EReal) (ix2 (0 : Fin 1) q) := by
  obtain ⟨-, -, -, -, e4, e5, -, -⟩ := idx_facts t
  unfold iblk3
  rw [View.read_apply]
  show V c main_v71 _ = V c main_v71 _
  refine congrArg _ (funext fun a => Fin.ext ?_)
  match a with
  | ⟨0, _⟩ => show win3_2.index t (0 : Fin 2) * 1 + 1 * 0 = 0; rw [e4]
  | ⟨1, _⟩ => show win3_2.index t (1 : Fin 2) * 128 + 1 * q.val = q.val; rw [e5]; omega

set_option maxHeartbeats 1600000 in
/-- What point t writes back is block t of the normalised, offset and cut features. -/
theorem flushed_eq (c : Dev nD) (t : Fin cfg3.N) :
    (dat3 V c).flushed 3 t = ((cfg3.win 3).blk t).view.read (Elt Ideal)
      (Cert.Spec.scaleShiftRelu (A := 100000) (B := 128) (V c main_v70) (V c main_v16) (V c main_v71)) := by
  show (cfg3.win 3).cut (grid3.coords t) ((dat3 V c).after 3 t) = _
  rw [after3_3]
  unfold out3_3
  rw [View.canon_unit_zero hz]
  simp only [View.ld_unit_zero (S := S5000x128) hz, View.ld_unit_zero (S := S5000x1) hz, View.ld_unit_zero (S := S1x128) hz]
  obtain ⟨-, -, -, -, -, -, e6, e7⟩ := idx_facts t
  funext y
  obtain ⟨p, q, rfl⟩ : ∃ (p : Fin 5000) (q : Fin 128), y = ix2 p q := ⟨y 0, y 1, eq_ix2 y⟩
  rw [View.read_apply]
  refine (pay_apply (iblk3 V c 1 t) (iblk3 V c 2 t) (iblk3 V c 0 t) p q).trans ?_
  unfold Cert.Spec.scaleShiftRelu
  have h0 : ((((cfg3.win 3).blk t).view.emb (ix2 p q)) 0).val = t.val * 5000 + p.val := by
    show win3_3.index t (0 : Fin 2) * 5000 + 1 * p.val = t.val * 5000 + p.val; rw [e6]; omega
  have h1 : ((((cfg3.win 3).blk t).view.emb (ix2 p q)) 1).val = q.val := by
    show win3_3.index t (1 : Fin 2) * 128 + 1 * q.val = q.val; rw [e7]; omega
  rw [feat_apply V c t p q _ h0 h1, factor_apply V c t p (ix2 ((((cfg3.win 3).blk t).view.emb (ix2 p q)) 0) (0 : Fin 1)) h0 rfl,
    offset_apply V c t q]
  refine congrArg (fun z => max (_ + (V c main_v71 : S1x128.Idx → EReal) z) _) (funext fun a => Fin.ext ?_)
  match a with
  | ⟨0, _⟩ => rfl
  | ⟨1, _⟩ => exact h1.symm

/-- An index of the result is in point t's block iff each coordinate is in the block's range on its axis. -/
theorem mem_blk (t : Fin cfg3.N) (i : S100000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v72).slice (win3_3.rect t)).set ↔ _
  rw [View.set_slice_whole, Rect.mem_set_unit]
  exact Iff.rfl

/-- Every entry of the result is written by the point that owns its row. -/
theorem cover (i : S100000x128.Idx) : ∃ t : Fin cfg3.N, (cfg3.win 3).flush t = true ∧ i ∈ ((cfg3.win 3).blk t).view.set := by
  have hN : cfg3.N = 20 := N_3
  have hi0 : (i 0).val < 100000 := (i 0).isLt
  have hi1 : (i 1).val < 128 := (i 1).isLt
  refine ⟨⟨(i 0).val / 5000, by rw [hN]; omega⟩, flush3_3 _, ?_⟩
  rw [mem_blk]
  obtain ⟨-, -, -, -, -, -, e6, e7⟩ := idx_facts ⟨(i 0).val / 5000, by rw [hN]; omega⟩
  intro a
  match a with
  | ⟨0, _⟩ =>
    show win3_3.index _ (0 : Fin 2) * 5000 ≤ (i 0).val ∧ (i 0).val < win3_3.index _ (0 : Fin 2) * 5000 + 5000
    rw [e6]; show (i 0).val / 5000 * 5000 ≤ (i 0).val ∧ (i 0).val < (i 0).val / 5000 * 5000 + 5000; omega
  | ⟨1, _⟩ =>
    show win3_3.index _ (1 : Fin 2) * 128 ≤ (i 1).val ∧ (i 1).val < win3_3.index _ (1 : Fin 2) * 128 + 128
    rw [e7]; omega

/-- THE RESULT ARRAY after the launch. -/
theorem final (c : Dev nD) : (dat3 V c).arrAt 3 cfg3.N
    = Cert.Spec.scaleShiftRelu (A := 100000) (B := 128) (V c main_v70) (V c main_v16) (V c main_v71) :=
  (dat3 V c).arrAt_eq_of_cover 3 _ (fun t _ => flushed_eq V c t) cover

end Cert.KernelIdeal.Region3

end
-- ==== Proof.Region4.lean ====
/-
  The head. One launch point takes the whole 64 x 128 pooled matrix, the whole 128 x 2 weight matrix and the whole one-row
  array of offsets; the body multiplies (both operands rounded to the narrow float format first, which over the extended reals
  changes nothing) into a zero accumulator, stretches the offset row over the 64 rows and adds. So entry (a, b) of the result is
  the sum over k of pooled(a, k) · weight(k, b), plus offset(b), whatever arrays the launch finds.
-/
import proofs.«174854_j3298534884164_1_alg».proof.Proof.Gen.KernelIdeal.Frame
import proofs.«174854_j3298534884164_1_alg».proof.Proof.Spec
import proofs.«174854_j3298534884164_1_alg».proof.Proof.LibColumnBlocks
import Idealize.ShloMosaic.Lib.Pipeline.Value
import Idealize.ShloMosaic.Lib.ValueLayout

noncomputable section

namespace Cert.KernelIdeal.Region4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q). -/
theorem pay_apply (v0 : Vec Ideal S64x128 .f32) (v3 : Vec Ideal S128x2 .f32) (v6 : Vec Ideal S1x2 .f32) (p : Fin 64) (q : Fin 2) :
    k4_pay1 v0 v3 v6 (ix2 p q) = (∑ k : Fin 128, v0 (ix2 p k) * v3 (ix2 k q)) + v6 (ix2 (0 : Fin 1) q) := by
  unfold k4_pay1
  simp only [shapeCast_self]
  show matmul (F := Ideal) dot_S64x128_S128x2_S64x2_1_0_0_1_n_n none (truncf .bf16 v0 bitsLt_bf16_f32) (truncf .bf16 v3 bitsLt_bf16_f32)
      (constant S64x2 .f32 0x00000000#32) (ix2 p q) + broadcastTo S64x2 v6 broadcasts_S1x2_S64x2 (ix2 p q) = _
  rw [broadcastTo_1b_ab_apply]
  refine congrArg (· + v6 (ix2 (0 : Fin 1) q)) ?_
  exact Cert.LibColumnBlocks.matmul_zero_apply dot_S64x128_S128x2_S64x2_1_0_0_1_n_n rfl rfl rfl rfl
    (fun j k => by
      unfold DotDims.lhsIdx
      rw [dif_neg (show ¬(0 : Fin S64x128.rank) ∈ dot_S64x128_S128x2_S64x2_1_0_0_1_n_n.lhsBatch by decide),
        dif_pos (show (0 : Fin S64x128.rank) ∈ dot_S64x128_S128x2_S64x2_1_0_0_1_n_n.lhsNonContracting by decide)]
      rfl)
    (fun j k => by
      unfold DotDims.rhsIdx
      rw [dif_neg (show ¬(1 : Fin S128x2.rank) ∈ dot_S64x128_S128x2_S64x2_1_0_0_1_n_n.rhsBatch by decide),
        dif_pos (show (1 : Fin S128x2.rank) ∈ dot_S64x128_S128x2_S64x2_1_0_0_1_n_n.rhsNonContracting by decide)]
      rfl)
    (truncf .bf16 v0 bitsLt_bf16_f32) (truncf .bf16 v3 bitsLt_bf16_f32) p q none

/-- Every block is its whole array: all block indices are zero. -/
theorem idx_facts : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

theorem pooled_apply (c : Dev nD) (t : Fin cfg4.N) (y : S64x128.Idx) :
    (iblk4 V c 0 t : Vec Ideal S64x128 .f32) y = (V c main_v84 : S64x128.Idx → EReal) y := by
  obtain ⟨e0, e1, -, -, -, -, -, -⟩ := idx_facts t
  unfold iblk4
  rw [View.read_apply]
  show V c main_v84 _ = V c main_v84 _
  refine congrArg _ (funext fun a => Fin.ext ?_)
  match a with
  | ⟨0, _⟩ => show win4_0.index t (0 : Fin 2) * 64 + 1 * (y 0).val = (y 0).val; rw [e0]; omega
  | ⟨1, _⟩ => show win4_0.index t (1 : Fin 2) * 128 + 1 * (y 1).val = (y 1).val; rw [e1]; omega

theorem weight_apply (c : Dev nD) (t : Fin cfg4.N) (y : S128x2.Idx) :
    (iblk4 V c 1 t : Vec Ideal S128x2 .f32) y = (V c main_arg7 : S128x2.Idx → EReal) y := by
  obtain ⟨-, -, e2, e3, -, -, -, -⟩ := idx_facts t
  unfold iblk4
  rw [View.read_apply]
  show V c main_arg7 _ = V c main_arg7 _
  refine congrArg _ (funext fun a => Fin.ext ?_)
  match a with
  | ⟨0, _⟩ => show win4_1.index t (0 : Fin 2) * 128 + 1 * (y 0).val = (y 0).val; rw [e2]; omega
  | ⟨1, _⟩ => show win4_1.index t (1 : Fin 2) * 2 + 1 * (y 1).val = (y 1).val; rw [e3]; omega

theorem offset_apply (c : Dev nD) (t : Fin cfg4.N) (y : S1x2.Idx) :
    (iblk4 V c 2 t : Vec Ideal S1x2 .f32) y = (V c main_v85 : S1x2.Idx → EReal) y := by
  obtain ⟨-, -, -, -, e4, e5, -, -⟩ := idx_facts t
  unfold iblk4
  rw [View.read_apply]
  show V c main_v85 _ = V c main_v85 _
  refine congrArg _ (funext fun a => Fin.ext ?_)
  match a with
  | ⟨0, _⟩ => show win4_2.index t (0 : Fin 2) * 1 + 1 * (y 0).val = (y 0).val; rw [e4]; omega
  | ⟨1, _⟩ => show win4_2.index t (1 : Fin 2) * 2 + 1 * (y 1).val = (y 1).val; rw [e5]; omega

/-- What the one point writes back is the whole affine image. -/
theorem flushed_eq (c : Dev nD) (t : Fin cfg4.N) :
    (dat4 V c).flushed 3 t = ((cfg4.win 3).blk t).view.read (Elt Ideal)
      (Cert.Spec.affine (A := 64) (K := 128) (B := 2) (V c main_v84) (V c main_arg7) (V c main_v85)) := by
  show (cfg4.win 3).cut (grid4.coords t) ((dat4 V c).after 3 t) = _
  rw [after4_3]
  unfold out4_3
  rw [View.canon_unit_zero hz]
  simp only [View.ld_unit_zero (S := S64x128) hz, View.ld_unit_zero (S := S128x2) hz, View.ld_unit_zero (S := S1x2) hz]
  obtain ⟨-, -, -, -, -, -, e6, e7⟩ := idx_facts t
  funext y
  obtain ⟨p, q, rfl⟩ : ∃ (p : Fin 64) (q : Fin 2), y = ix2 p q := ⟨y 0, y 1, eq_ix2 y⟩
  rw [View.read_apply]
  refine (pay_apply (iblk4 V c 0 t) (iblk4 V c 1 t) (iblk4 V c 2 t) p q).trans ?_
  have he : ((cfg4.win 3).blk t).view.emb (ix2 p q) = ix2 p q := by
    funext a; apply Fin.ext
    match a with
    | ⟨0, _⟩ => show win4_3.index t (0 : Fin 2) * 64 + 1 * p.val = p.val; rw [e6]; omega
    | ⟨1, _⟩ => show win4_3.index t (1 : Fin 2) * 2 + 1 * q.val = q.val; rw [e7]; omega
  rw [he, Cert.Spec.affine_apply, offset_apply V c t]
  refine congrArg (· + _) (Finset.sum_congr rfl fun k _ => ?_)
  rw [pooled_apply V c t, weight_apply V c t]

/-- An index of the result is in the one point's block iff each coordinate is in the block's range on its axis. -/
theorem mem_blk (t : Fin cfg4.N) (i : S64x2.Idx) :
    i ∈ ((cfg4.win 3).blk t).view.set ↔ ∀ a : Fin 2, win4_3.index t a * S64x2.size a ≤ (i a).val
      ∧ (i a).val < win4_3.index t a * S64x2.size a + S64x2.size a := by
  show i ∈ ((View.whole main_v86).slice (win4_3.rect t)).set ↔ _
  rw [View.set_slice_whole, Rect.mem_set_unit]
  exact Iff.rfl

/-- The one point's block is the whole result. -/
theorem cover (i : S64x2.Idx) : ∃ t : Fin cfg4.N, (cfg4.win 3).flush t = true ∧ i ∈ ((cfg4.win 3).blk t).view.set := by
  have hN : cfg4.N = 1 := N_4
  have hi0 : (i 0).val < 64 := (i 0).isLt
  have hi1 : (i 1).val < 2 := (i 1).isLt
  refine ⟨⟨0, by rw [hN]; omega⟩, flush4_3 _, ?_⟩
  rw [mem_blk]
  obtain ⟨-, -, -, -, -, -, e6, e7⟩ := idx_facts ⟨0, by rw [hN]; omega⟩
  intro a
  match a with
  | ⟨0, _⟩ =>
    show win4_3.index _ (0 : Fin 2) * 64 ≤ (i 0).val ∧ (i 0).val < win4_3.index _ (0 : Fin 2) * 64 + 64
    rw [e6]; omega
  | ⟨1, _⟩ =>
    show win4_3.index _ (1 : Fin 2) * 2 ≤ (i 1).val ∧ (i 1).val < win4_3.index _ (1 : Fin 2) * 2 + 2
    rw [e7]; omega

/-- THE RESULT ARRAY after the launch. -/
theorem final (c : Dev nD) : (dat4 V c).arrAt 3 cfg4.N
    = Cert.Spec.affine (A := 64) (K := 128) (B := 2) (V c main_v84) (V c main_arg7) (V c main_v85) :=
  (dat4 V c).arrAt_eq_of_cover 3 _ (fun t _ => flushed_eq V c t) cover

end Cert.KernelIdeal.Region4

end
-- ==== Proof.LibCastForms.lean ====
/-
  Columns, rows and their stretchings read at coordinates, and two ways of writing the same column or row.

  * A one-column matrix [A,1] stretched along the columns by a host `broadcast_in_dim` (dims 0,1) reads, at (a, b), its entry (a, 0);
    a one-row matrix [1,B] stretched along the rows (dims 0,1) reads, at (a, b), its entry (0, b).
  * A vector [B] placed as the one row of a [1,B] matrix by `broadcast_in_dim` (dims 1) reads, at (z, b), the vector at b.
  * A vector [A] recast as an [A,1] column IS the vector placed as a column by `broadcast_in_dim` (dims 0), as whole arrays;
    a vector [B] recast as a [1,B] row IS the vector placed as a row by `broadcast_in_dim` (dims 1), as whole arrays.
-/
import Idealize.ShloMosaic.Lib.ValueIdx
import Idealize.ShloMosaic.Lib.ValueLayout
import Idealize.ShloMosaic.Lib.Pipeline.Value

namespace Cert.LibCastForms

open Idealize.ShloMosaic Idealize.ShloMosaic.ValueIdx

variable {α : Type}

/-- A column stretched over B columns: entry (a, b) is the column's entry in row a. -/
theorem bcast_a1_ab_apply {A B : ℕ} (x : (⟨2, ![A, 1]⟩ : Shape).Idx → α)
    (h : (⟨2, ![A, 1]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 a (0 : Fin 1)) := by
  refine broadcastInDim_apply _ h x _ _ fun d => ?_
  match d with
  | ⟨0, _⟩ =>
    show a.val = if A = 1 then 0 else a.val
    split
    · have := a.isLt; omega
    · rfl
  | ⟨1, _⟩ => rfl

/-- A row stretched over A rows: entry (a, b) is the row's entry in column b. -/
theorem bcast_1b_ab_apply {A B : ℕ} (x : (⟨2, ![1, B]⟩ : Shape).Idx → α)
    (h : (⟨2, ![1, B]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 (0 : Fin 1) b) := by
  refine broadcastInDim_apply _ h x _ _ fun d => ?_
  match d with
  | ⟨0, _⟩ => rfl
  | ⟨1, _⟩ =>
    show b.val = if B = 1 then 0 else b.val
    split
    · have := b.isLt; omega
    · rfl

/-- A vector placed as the one row of a matrix: entry (z, b) is the vector's entry b. -/
theorem bcast_row {B : ℕ} (x : (⟨1, ![B]⟩ : Shape).Idx → α)
    (h : (⟨1, ![B]⟩ : Shape).BroadcastsInDim ⟨2, ![1, B]⟩ (![1] : Fin 1 → Fin 2)) (z : Fin 1) (b : Fin B) :
    broadcastInDim ⟨2, ![1, B]⟩ (![1] : Fin 1 → Fin 2) h x (ix2 z b) = x (ix1 b) := by
  refine broadcastInDim_apply _ h x _ _ fun d => ?_
  match d with
  | ⟨0, _⟩ =>
    show b.val = if B = 1 then 0 else b.val
    split
    · have := b.isLt; omega
    · rfl

/-- A vector placed as the one column of a matrix: entry (a, z) is the vector's entry a. -/
theorem bcast_col {A : ℕ} (x : (⟨1, ![A]⟩ : Shape).Idx → α)
    (h : (⟨1, ![A]⟩ : Shape).BroadcastsInDim ⟨2, ![A, 1]⟩ (![0] : Fin 1 → Fin 2)) (a : Fin A) (z : Fin 1) :
    broadcastInDim ⟨2, ![A, 1]⟩ (![0] : Fin 1 → Fin 2) h x (ix2 a z) = x (ix1 a) := by
  refine broadcastInDim_apply _ h x _ _ fun d => ?_
  match d with
  | ⟨0, _⟩ =>
    show a.val = if A = 1 then 0 else a.val
    split
    · have := a.isLt; omega
    · rfl

/-- A vector recast as a column: entry (a, z) is the vector's entry a. -/
theorem cast_col {A : ℕ} (x : (⟨1, ![A]⟩ : Shape).Idx → α) (h : (⟨1, ![A]⟩ : Shape).ShapeCasts ⟨2, ![A, 1]⟩)
    (a : Fin A) (z : Fin 1) : shapeCast ⟨2, ![A, 1]⟩ x h (ix2 a z) = x (ix1 a) := by
  refine shapeCast_apply x h _ _ ?_
  rw [Shape.rowMajor_val_one, Shape.rowMajor_val_two]
  have hz : z.val = 0 := by omega
  show a.val = a.val * 1 + z.val
  omega

/-- Recasting a vector as a column and placing it as a column are one array. -/
theorem col_cast_eq_bcast {A : ℕ} (x : (⟨1, ![A]⟩ : Shape).Idx → α) (h : (⟨1, ![A]⟩ : Shape).ShapeCasts ⟨2, ![A, 1]⟩)
    (h' : (⟨1, ![A]⟩ : Shape).BroadcastsInDim ⟨2, ![A, 1]⟩ (![0] : Fin 1 → Fin 2)) :
    shapeCast ⟨2, ![A, 1]⟩ x h = broadcastInDim ⟨2, ![A, 1]⟩ (![0] : Fin 1 → Fin 2) h' x := by
  funext j
  obtain ⟨a, z, rfl⟩ : ∃ (a : Fin A) (z : Fin 1), j = ix2 a z := ⟨j 0, j 1, eq_ix2 j⟩
  rw [cast_col, bcast_col]

/-- Recasting a vector as a row and placing it as a row are one array. -/
theorem row_cast_eq_bcast {B : ℕ} (x : (⟨1, ![B]⟩ : Shape).Idx → α) (h : (⟨1, ![B]⟩ : Shape).ShapeCasts ⟨2, ![1, B]⟩)
    (h' : (⟨1, ![B]⟩ : Shape).BroadcastsInDim ⟨2, ![1, B]⟩ (![1] : Fin 1 → Fin 2)) :
    shapeCast ⟨2, ![1, B]⟩ x h = broadcastInDim ⟨2, ![1, B]⟩ (![1] : Fin 1 → Fin 2) h' x := by
  funext j
  obtain ⟨z, b, rfl⟩ : ∃ (z : Fin 1) (b : Fin B), j = ix2 z b := ⟨j 0, j 1, eq_ix2 j⟩
  rw [shapeCast_a_1a_apply, bcast_row]

end Cert.LibCastForms
-- ==== Proof.RefForms.lean ====
/-
  The reference's dense layers as the three whole-matrix functions. Over the extended reals:
  * the host's matrix product of a 100000 x 128 matrix with a 128 x 128 one, and of a 64 x 128 matrix with a 128 x 2 one, is `matProd`;
  * the host's line "stretch the factor column, multiply, stretch the offset row, add, take the maximum with a matrix of zero words"
    is `scaleShiftRelu`;
  * the host's line "matrix product, stretch the offset row, add" is `affine`.
  Each is read entry by entry: a product as the sum over the contracted coordinate, a stretched column or row at its one entry.
-/
import proofs.«174854_j3298534884164_1_alg».proof.Proof.RefRead
import proofs.«174854_j3298534884164_1_alg».proof.Proof.Spec
import proofs.«174854_j3298534884164_1_alg».proof.Proof.LibColumnBlocks
import proofs.«174854_j3298534884164_1_alg».proof.Proof.LibCastForms

noncomputable section

namespace Cert.ReferenceIdeal.Forms

open Cert.ReferenceIdeal Cert.ReferenceIdeal.Facts₀ Cert.ReferenceIdeal.Facts Cert.ReferenceIdeal.ReadP Idealize.ShloMosaic Idealize.ShloMosaic.ValueIdx

/-- The big projection is the matrix product. -/
theorem proj_eq (x : FVec Ideal S100000x128 .f32) (w : FVec Ideal S128x128 .f32) :
    Host.dotGeneral (F := Ideal) dot_S100000x128_S128x128_S100000x128_1_0_0_1_n_n none x w = Cert.Spec.matProd (A := 100000) (K := 128) (B := 128) x w := by
  funext j
  obtain ⟨a, b, rfl⟩ : ∃ (a : Fin 100000) (b : Fin 128), j = ix2 a b := ⟨j 0, j 1, eq_ix2 j⟩
  exact Cert.LibColumnBlocks.hostDot_apply dot_S100000x128_S128x128_S100000x128_1_0_0_1_n_n rfl rfl rfl rfl
    (fun i q => lhs_main_v4_0 i q) (fun i q => rhs_main_v4_1 i q) x w a b none

/-- The head's product is the matrix product. -/
theorem head_eq (p : FVec Ideal S64x128 .f32) (w : FVec Ideal S128x2 .f32) :
    Host.dotGeneral (F := Ideal) dot_S64x128_S128x2_S64x2_1_0_0_1_n_n none p w = Cert.Spec.matProd (A := 64) (K := 128) (B := 2) p w := by
  funext j
  obtain ⟨a, b, rfl⟩ : ∃ (a : Fin 64) (b : Fin 2), j = ix2 a b := ⟨j 0, j 1, eq_ix2 j⟩
  exact Cert.LibColumnBlocks.hostDot_apply dot_S64x128_S128x2_S64x2_1_0_0_1_n_n rfl rfl rfl rfl
    (fun i q => lhs_main_v112_0 i q) (fun i q => rhs_main_v112_1 i q) p w a b none

/-- Scale the rows, add the offsets, cut at the zero word: the host's line is `scaleShiftRelu`. -/
theorem relu_line_eq (g : FVec Ideal S100000x128 .f32) (d : FVec Ideal S100000x1 .f32) (r : FVec Ideal S1x128 .f32) :
    maximumf (addf (mulf (broadcastInDim S100000x128 ![0, 1] bcast_S100000x1_S100000x128_0_1 d) g)
        (broadcastInDim S100000x128 ![0, 1] bcast_S1x128_S100000x128_0_1 r))
      (broadcastInDim S100000x128 ![] bcast_S_S100000x128 (constant (F := Ideal) S_ .f32 0x00000000#32))
    = Cert.Spec.scaleShiftRelu (A := 100000) (B := 128) g d r := by
  funext j
  obtain ⟨a, b, rfl⟩ : ∃ (a : Fin 100000) (b : Fin 128), j = ix2 a b := ⟨j 0, j 1, eq_ix2 j⟩
  show max ((broadcastInDim S100000x128 ![0, 1] bcast_S100000x1_S100000x128_0_1 d (ix2 a b)) * g (ix2 a b)
      + broadcastInDim S100000x128 ![0, 1] bcast_S1x128_S100000x128_0_1 r (ix2 a b))
      (broadcastInDim S100000x128 ![] bcast_S_S100000x128 (constant (F := Ideal) S_ .f32 0x00000000#32) (ix2 a b)) = _
  rw [Cert.LibCastForms.bcast_a1_ab_apply, Cert.LibCastForms.bcast_1b_ab_apply,
    broadcastInDim_apply _ bcast_S_S100000x128 _ (ix2 a b) ix0 (fun d => d.elim0)]
  rfl

/-- Product plus a stretched offset row: the host's line is `affine`. -/
theorem affine_line_eq (p : FVec Ideal S64x128 .f32) (w : FVec Ideal S128x2 .f32) (r : FVec Ideal S1x2 .f32) :
    addf (Host.dotGeneral (F := Ideal) dot_S64x128_S128x2_S64x2_1_0_0_1_n_n none p w) (broadcastInDim S64x2 ![0, 1] bcast_S1x2_S64x2_0_1 r)
    = Cert.Spec.affine (A := 64) (K := 128) (B := 2) p w r := by
  funext j
  obtain ⟨a, b, rfl⟩ : ∃ (a : Fin 64) (b : Fin 2), j = ix2 a b := ⟨j 0, j 1, eq_ix2 j⟩
  show Host.dotGeneral (F := Ideal) dot_S64x128_S128x2_S64x2_1_0_0_1_n_n none p w (ix2 a b) + broadcastInDim S64x2 ![0, 1] bcast_S1x2_S64x2_0_1 r (ix2 a b) = _
  rw [Cert.LibCastForms.bcast_1b_ab_apply, head_eq]
  rfl

end Cert.ReferenceIdeal.Forms

end
-- ==== Proof.KStages.lean ====
/-
  The idealized kernel program's buffers, segment by segment, as the reference's stage values of the nine arguments.

  The program is host operations, a launch, host operations, two launches, host operations, a launch, host operations and the
  last launch. At each boundary between segments every buffer that a later segment reads is identified with one of the
  reference's stage values (the value one of the reference's operations writes, as a function of the arguments):
  * a host stretch applies the same operations, in the same order, as the reference does, to operands already identified,
    so its results are the reference's next stage values — up to two respellings: the kernel program RECASTS the degree
    reciprocals [N] as a column [N,1] and a bias [128] as a row [1,128] where the reference places them by a broadcast, and
    the reference computes the degree reciprocals afresh for its second layer where the kernel program reuses the first's;
  * a launch's output array is the matching dense layer of the arrays it finds (the five Region modules), and the reference's
    corresponding lines are the same dense layer (the reference's forms);
  * a buffer a segment does not write keeps its contents.
  At the end the result buffer holds the reference's last stage value of the arguments.
-/
import proofs.«174854_j3298534884164_1_alg».proof.Proof.Gen.KernelIdeal.Frame
import proofs.«174854_j3298534884164_1_alg».proof.Proof.Region0
import proofs.«174854_j3298534884164_1_alg».proof.Proof.Region1
import proofs.«174854_j3298534884164_1_alg».proof.Proof.Region2
import proofs.«174854_j3298534884164_1_alg».proof.Proof.Region3
import proofs.«174854_j3298534884164_1_alg».proof.Proof.Region4
import proofs.«174854_j3298534884164_1_alg».proof.Proof.RefRead
import proofs.«174854_j3298534884164_1_alg».proof.Proof.RefForms
import proofs.«174854_j3298534884164_1_alg».proof.Proof.LibCastForms
import Idealize.ShloMosaic.Lib.StableHlo.Run

set_option maxRecDepth 16384

noncomputable section

namespace Cert.KernelIdeal.Stages

open Cert.KernelIdeal Cert.KernelIdeal.Gen Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The reference recomputes the degree reciprocals for its second layer: the same values -/

theorem factor_again (x1 : (⟨Cert.ReferenceIdeal.S2x1600000, .i32⟩ : BufTy).Contents (Elt Ideal)) :
    val_main_v83 (F := Ideal) x1 = val_main_v35 (F := Ideal) x1 := rfl

theorem edge_factor_again (x1 : (⟨Cert.ReferenceIdeal.S2x1600000, .i32⟩ : BufTy).Contents (Elt Ideal)) :
    val_main_v70 (F := Ideal) x1 = val_main_v22 (F := Ideal) x1 := rfl

/-! ## The two inlined selections, without the transports of their buffers

An inlined call keeps each of its values in a buffer through a transport into the buffer's own type and back; the buffers'
types are the values' types, so each transport is the identity and the three operations are the plain ones. -/

theorem where_nodes : (hostOps0_1 : List (HloOp τ sig (Elt Ideal)))
    = [ StableHlo.unary main_cst_4 main_call0_v0 (id : (⟨S_, .f32⟩ : BufTy).Contents (Elt Ideal) → (⟨S_, .f32⟩ : BufTy).Contents (Elt Ideal)),
        StableHlo.unary main_call0_v0 main_call0_v1 (broadcastInDim S100000 ![] bcast_S_S100000 : (⟨S_, .f32⟩ : BufTy).Contents (Elt Ideal) → (⟨S100000, .f32⟩ : BufTy).Contents (Elt Ideal)),
        StableHlo.ternary main_v12 main_v14 main_call0_v1 main_v15 (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ] := rfl

theorem where_edges : (hostOps0_3 : List (HloOp τ sig (Elt Ideal)))
    = [ StableHlo.unary main_cst_7 main_call1_v0 (id : (⟨S_, .f32⟩ : BufTy).Contents (Elt Ideal) → (⟨S_, .f32⟩ : BufTy).Contents (Elt Ideal)),
        StableHlo.unary main_call1_v0 main_call1_v1 (broadcastInDim S20000 ![] bcast_S_S20000 : (⟨S_, .f32⟩ : BufTy).Contents (Elt Ideal) → (⟨S20000, .f32⟩ : BufTy).Contents (Elt Ideal)),
        StableHlo.ternary main_v18 main_v20 main_call1_v1 main_v21 (select : (⟨S20000, .i1⟩ : BufTy).Contents (Elt Ideal) → (⟨S20000, .f32⟩ : BufTy).Contents (Elt Ideal) → (⟨S20000, .f32⟩ : BufTy).Contents (Elt Ideal) → (⟨S20000, .f32⟩ : BufTy).Contents (Elt Ideal)) ] := rfl

/-! ## At the first launch's entry -/

theorem s5_arg0 : W5 m ρ c (Proc.devRef .tc main_arg0) = (m ((c.tc : Thread nD τ).loc main_arg0)) := by
  show StableHlo.after hostOps0_4 (StableHlo.after hostOps0_3 (StableHlo.after hostOps0_2 (StableHlo.after hostOps0_1 (StableHlo.after hostOps0 (W0 m ρ c))))) _ = _
  rw [where_nodes, where_edges]
  after_results_simp
  all_goals rfl

theorem s5_arg2 : W5 m ρ c (Proc.devRef .tc main_arg2) = (m ((c.tc : Thread nD τ).loc main_arg2)) := by
  show StableHlo.after hostOps0_4 (StableHlo.after hostOps0_3 (StableHlo.after hostOps0_2 (StableHlo.after hostOps0_1 (StableHlo.after hostOps0 (W0 m ρ c))))) _ = _
  rw [where_nodes, where_edges]
  after_results_simp
  all_goals rfl

theorem s5_arg3 : W5 m ρ c (Proc.devRef .tc main_arg3) = (m ((c.tc : Thread nD τ).loc main_arg3)) := by
  show StableHlo.after hostOps0_4 (StableHlo.after hostOps0_3 (StableHlo.after hostOps0_2 (StableHlo.after hostOps0_1 (StableHlo.after hostOps0 (W0 m ρ c))))) _ = _
  rw [where_nodes, where_edges]
  after_results_simp
  all_goals rfl

theorem s5_arg4 : W5 m ρ c (Proc.devRef .tc main_arg4) = (m ((c.tc : Thread nD τ).loc main_arg4)) := by
  show StableHlo.after hostOps0_4 (StableHlo.after hostOps0_3 (StableHlo.after hostOps0_2 (StableHlo.after hostOps0_1 (StableHlo.after hostOps0 (W0 m ρ c))))) _ = _
  rw [where_nodes, where_edges]
  after_results_simp
  all_goals rfl

theorem s5_arg5 : W5 m ρ c (Proc.devRef .tc main_arg5) = (m ((c.tc : Thread nD τ).loc main_arg5)) := by
  show StableHlo.after hostOps0_4 (StableHlo.after hostOps0_3 (StableHlo.after hostOps0_2 (StableHlo.after hostOps0_1 (StableHlo.after hostOps0 (W0 m ρ c))))) _ = _
  rw [where_nodes, where_edges]
  after_results_simp
  all_goals rfl

theorem s5_arg6 : W5 m ρ c (Proc.devRef .tc main_arg6) = (m ((c.tc : Thread nD τ).loc main_arg6)) := by
  show StableHlo.after hostOps0_4 (StableHlo.after hostOps0_3 (StableHlo.after hostOps0_2 (StableHlo.after hostOps0_1 (StableHlo.after hostOps0 (W0 m ρ c))))) _ = _
  rw [where_nodes, where_edges]
  after_results_simp
  all_goals rfl

theorem s5_arg7 : W5 m ρ c (Proc.devRef .tc main_arg7) = (m ((c.tc : Thread nD τ).loc main_arg7)) := by
  show StableHlo.after hostOps0_4 (StableHlo.after hostOps0_3 (StableHlo.after hostOps0_2 (StableHlo.after hostOps0_1 (StableHlo.after hostOps0 (W0 m ρ c))))) _ = _
  rw [where_nodes, where_edges]
  after_results_simp
  all_goals rfl

theorem s5_arg8 : W5 m ρ c (Proc.devRef .tc main_arg8) = (m ((c.tc : Thread nD τ).loc main_arg8)) := by
  show StableHlo.after hostOps0_4 (StableHlo.after hostOps0_3 (StableHlo.after hostOps0_2 (StableHlo.after hostOps0_1 (StableHlo.after hostOps0 (W0 m ρ c))))) _ = _
  rw [where_nodes, where_edges]
  after_results_simp
  all_goals rfl

set_option maxHeartbeats 4000000 in
theorem s5_v1 : W5 m ρ c (Proc.devRef .tc main_v1) = val_main_v1 (F := Ideal) (m ((c.tc : Thread nD τ).loc main_arg1)) := by
  show StableHlo.after hostOps0_4 (StableHlo.after hostOps0_3 (StableHlo.after hostOps0_2 (StableHlo.after hostOps0_1 (StableHlo.after hostOps0 (W0 m ρ c))))) _ = _
  rw [where_nodes, where_edges]
  after_results_simp
  rfl

set_option maxHeartbeats 4000000 in
theorem s5_v3 : W5 m ρ c (Proc.devRef .tc main_v3) = val_main_v3 (F := Ideal) (m ((c.tc : Thread nD τ).loc main_arg1)) := by
  show StableHlo.after hostOps0_4 (StableHlo.after hostOps0_3 (StableHlo.after hostOps0_2 (StableHlo.after hostOps0_1 (StableHlo.after hostOps0 (W0 m ρ c))))) _ = _
  rw [where_nodes, where_edges]
  after_results_simp
  rfl

set_option maxHeartbeats 4000000 in
theorem s5_v16 : W5 m ρ c (Proc.devRef .tc main_v16) = val_main_v35 (F := Ideal) (m ((c.tc : Thread nD τ).loc main_arg1)) := by
  show StableHlo.after hostOps0_4 (StableHlo.after hostOps0_3 (StableHlo.after hostOps0_2 (StableHlo.after hostOps0_1 (StableHlo.after hostOps0 (W0 m ρ c))))) _ = _
  rw [where_nodes, where_edges]
  after_results_simp
  refine (Cert.LibCastForms.col_cast_eq_bcast _ _ Cert.ReferenceIdeal.Facts₀.bcast_S100000_S100000x1_0).trans ?_
  rfl

set_option maxHeartbeats 4000000 in
theorem s5_v22 : W5 m ρ c (Proc.devRef .tc main_v22) = val_main_v22 (F := Ideal) (m ((c.tc : Thread nD τ).loc main_arg1)) := by
  show StableHlo.after hostOps0_4 (StableHlo.after hostOps0_3 (StableHlo.after hostOps0_2 (StableHlo.after hostOps0_1 (StableHlo.after hostOps0 (W0 m ρ c))))) _ = _
  rw [where_nodes, where_edges]
  after_results_simp
  refine (Cert.LibCastForms.col_cast_eq_bcast _ _ Cert.ReferenceIdeal.Facts₀.bcast_S20000_S20000x1_0).trans ?_
  rfl

/-! ## After the first launch -/

set_option maxHeartbeats 4000000 in
theorem s6_v23 : W6 m ρ c (Proc.devRef .tc main_v23) = val_main_v4 (F := Ideal) (m ((c.tc : Thread nD τ).loc main_arg0)) (m ((c.tc : Thread nD τ).loc main_arg3)) := by
  refine (W6_arr m ρ c 2).trans ((Cert.KernelIdeal.Region0.final (V5 m ρ) c).trans ?_)
  rw [show V5 m ρ c main_arg0 = (m ((c.tc : Thread nD τ).loc main_arg0)) from s5_arg0 m ρ c, show V5 m ρ c main_arg3 = (m ((c.tc : Thread nD τ).loc main_arg3)) from s5_arg3 m ρ c]
  exact (Cert.ReferenceIdeal.Forms.proj_eq _ _).symm

theorem s6_v1 : W6 m ρ c (Proc.devRef .tc main_v1) = val_main_v1 (F := Ideal) (m ((c.tc : Thread nD τ).loc main_arg1)) :=
  (W6_of_ne m ρ c main_v1 (by decide)).trans (s5_v1 m ρ c)

theorem s6_v3 : W6 m ρ c (Proc.devRef .tc main_v3) = val_main_v3 (F := Ideal) (m ((c.tc : Thread nD τ).loc main_arg1)) :=
  (W6_of_ne m ρ c main_v3 (by decide)).trans (s5_v3 m ρ c)

theorem s6_v16 : W6 m ρ c (Proc.devRef .tc main_v16) = val_main_v35 (F := Ideal) (m ((c.tc : Thread nD τ).loc main_arg1)) :=
  (W6_of_ne m ρ c main_v16 (by decide)).trans (s5_v16 m ρ c)

theorem s6_v22 : W6 m ρ c (Proc.devRef .tc main_v22) = val_main_v22 (F := Ideal) (m ((c.tc : Thread nD τ).loc main_arg1)) :=
  (W6_of_ne m ρ c main_v22 (by decide)).trans (s5_v22 m ρ c)

theorem s6_arg2 : W6 m ρ c (Proc.devRef .tc main_arg2) = (m ((c.tc : Thread nD τ).loc main_arg2)) :=
  (W6_of_ne m ρ c main_arg2 (by decide)).trans (s5_arg2 m ρ c)

theorem s6_arg4 : W6 m ρ c (Proc.devRef .tc main_arg4) = (m ((c.tc : Thread nD τ).loc main_arg4)) :=
  (W6_of_ne m ρ c main_arg4 (by decide)).trans (s5_arg4 m ρ c)

theorem s6_arg5 : W6 m ρ c (Proc.devRef .tc main_arg5) = (m ((c.tc : Thread nD τ).loc main_arg5)) :=
  (W6_of_ne m ρ c main_arg5 (by decide)).trans (s5_arg5 m ρ c)

theorem s6_arg6 : W6 m ρ c (Proc.devRef .tc main_arg6) = (m ((c.tc : Thread nD τ).loc main_arg6)) :=
  (W6_of_ne m ρ c main_arg6 (by decide)).trans (s5_arg6 m ρ c)

theorem s6_arg7 : W6 m ρ c (Proc.devRef .tc main_arg7) = (m ((c.tc : Thread nD τ).loc main_arg7)) :=
  (W6_of_ne m ρ c main_arg7 (by decide)).trans (s5_arg7 m ρ c)

theorem s6_arg8 : W6 m ρ c (Proc.devRef .tc main_arg8) = (m ((c.tc : Thread nD τ).loc main_arg8)) :=
  (W6_of_ne m ρ c main_arg8 (by decide)).trans (s5_arg8 m ρ c)

/-! ## At the second launch's entry -/

theorem s7_v1 : W7 m ρ c (Proc.devRef .tc main_v1) = val_main_v1 (F := Ideal) (m ((c.tc : Thread nD τ).loc main_arg1)) := by
  show StableHlo.after hostOps1 (W6 m ρ c) _ = _
  after_results_simp
  exact s6_v1 m ρ c

theorem s7_v3 : W7 m ρ c (Proc.devRef .tc main_v3) = val_main_v3 (F := Ideal) (m ((c.tc : Thread nD τ).loc main_arg1)) := by
  show StableHlo.after hostOps1 (W6 m ρ c) _ = _
  after_results_simp
  exact s6_v3 m ρ c

theorem s7_v16 : W7 m ρ c (Proc.devRef .tc main_v16) = val_main_v35 (F := Ideal) (m ((c.tc : Thread nD τ).loc main_arg1)) := by
  show StableHlo.after hostOps1 (W6 m ρ c) _ = _
  after_results_simp
  exact s6_v16 m ρ c

theorem s7_v22 : W7 m ρ c (Proc.devRef .tc main_v22) = val_main_v22 (F := Ideal) (m ((c.tc : Thread nD τ).loc main_arg1)) := by
  show StableHlo.after hostOps1 (W6 m ρ c) _ = _
  after_results_simp
  exact s6_v22 m ρ c

theorem s7_arg2 : W7 m ρ c (Proc.devRef .tc main_arg2) = (m ((c.tc : Thread nD τ).loc main_arg2)) := by
  show StableHlo.after hostOps1 (W6 m ρ c) _ = _
  after_results_simp
  exact s6_arg2 m ρ c

theorem s7_arg5 : W7 m ρ c (Proc.devRef .tc main_arg5) = (m ((c.tc : Thread nD τ).loc main_arg5)) := by
  show StableHlo.after hostOps1 (W6 m ρ c) _ = _
  after_results_simp
  exact s6_arg5 m ρ c

theorem s7_arg6 : W7 m ρ c (Proc.devRef .tc main_arg6) = (m ((c.tc : Thread nD τ).loc main_arg6)) := by
  show StableHlo.after hostOps1 (W6 m ρ c) _ = _
  after_results_simp
  exact s6_arg6 m ρ c

theorem s7_arg7 : W7 m ρ c (Proc.devRef .tc main_arg7) = (m ((c.tc : Thread nD τ).loc main_arg7)) := by
  show StableHlo.after hostOps1 (W6 m ρ c) _ = _
  after_results_simp
  exact s6_arg7 m ρ c

theorem s7_arg8 : W7 m ρ c (Proc.devRef .tc main_arg8) = (m ((c.tc : Thread nD τ).loc main_arg8)) := by
  show StableHlo.after hostOps1 (W6 m ρ c) _ = _
  after_results_simp
  exact s6_arg8 m ρ c

set_option maxHeartbeats 4000000 in
theorem s7_v45 : W7 m ρ c (Proc.devRef .tc main_v45) = val_main_v45 (F := Ideal) (m ((c.tc : Thread nD τ).loc main_arg0)) (m ((c.tc : Thread nD τ).loc main_arg1)) (m ((c.tc : Thread nD τ).loc main_arg3)) := by
  show StableHlo.after hostOps1 (W6 m ρ c) _ = _
  after_results_simp
  rw [s6_v23 m ρ c, s6_v1 m ρ c, s6_v3 m ρ c, s6_v22 m ρ c]
  rfl

set_option maxHeartbeats 4000000 in
theorem s7_v46 : W7 m ρ c (Proc.devRef .tc main_v46) = val_main_v48 (F := Ideal) (m ((c.tc : Thread nD τ).loc main_arg4)) := by
  show StableHlo.after hostOps1 (W6 m ρ c) _ = _
  after_results_simp
  rw [s6_arg4 m ρ c]
  refine (Cert.LibCastForms.row_cast_eq_bcast _ _ Cert.ReferenceIdeal.Facts₀.bcast_S128_S1x128_1).trans ?_
  rfl

/-! ## After the second launch, and after the third -/

set_option maxHeartbeats 4000000 in
theorem s8_v47 : W8 m ρ c (Proc.devRef .tc main_v47) = val_main_v51 (F := Ideal) (m ((c.tc : Thread nD τ).loc main_arg0)) (m ((c.tc : Thread nD τ).loc main_arg1)) (m ((c.tc : Thread nD τ).loc main_arg3)) (m ((c.tc : Thread nD τ).loc main_arg4)) := by
  refine (W8_arr m ρ c 3).trans ((Cert.KernelIdeal.Region1.final (V7 m ρ) c).trans ?_)
  rw [show V7 m ρ c main_v45 = _ from s7_v45 m ρ c, show V7 m ρ c main_v16 = _ from s7_v16 m ρ c,
    show V7 m ρ c main_v46 = _ from s7_v46 m ρ c]
  exact (Cert.ReferenceIdeal.Forms.relu_line_eq _ _ _).symm

theorem s8_v1 : W8 m ρ c (Proc.devRef .tc main_v1) = val_main_v1 (F := Ideal) (m ((c.tc : Thread nD τ).loc main_arg1)) :=
  (W8_of_ne m ρ c main_v1 (by decide)).trans (s7_v1 m ρ c)

theorem s8_v3 : W8 m ρ c (Proc.devRef .tc main_v3) = val_main_v3 (F := Ideal) (m ((c.tc : Thread nD τ).loc main_arg1)) :=
  (W8_of_ne m ρ c main_v3 (by decide)).trans (s7_v3 m ρ c)

theorem s8_v16 : W8 m ρ c (Proc.devRef .tc main_v16) = val_main_v35 (F := Ideal) (m ((c.tc : Thread nD τ).loc main_arg1)) :=
  (W8_arr m ρ c 1).trans ((((dat1 (V7 m ρ) c).arrAt_in 1 rfl _).trans (A_eq1 (V7 m ρ) c 1)).trans (s7_v16 m ρ c))

theorem s8_v22 : W8 m ρ c (Proc.devRef .tc main_v22) = val_main_v22 (F := Ideal) (m ((c.tc : Thread nD τ).loc main_arg1)) :=
  (W8_of_ne m ρ c main_v22 (by decide)).trans (s7_v22 m ρ c)

theorem s8_arg2 : W8 m ρ c (Proc.devRef .tc main_arg2) = (m ((c.tc : Thread nD τ).loc main_arg2)) :=
  (W8_of_ne m ρ c main_arg2 (by decide)).trans (s7_arg2 m ρ c)

theorem s8_arg5 : W8 m ρ c (Proc.devRef .tc main_arg5) = (m ((c.tc : Thread nD τ).loc main_arg5)) :=
  (W8_of_ne m ρ c main_arg5 (by decide)).trans (s7_arg5 m ρ c)

theorem s8_arg6 : W8 m ρ c (Proc.devRef .tc main_arg6) = (m ((c.tc : Thread nD τ).loc main_arg6)) :=
  (W8_of_ne m ρ c main_arg6 (by decide)).trans (s7_arg6 m ρ c)

theorem s8_arg7 : W8 m ρ c (Proc.devRef .tc main_arg7) = (m ((c.tc : Thread nD τ).loc main_arg7)) :=
  (W8_of_ne m ρ c main_arg7 (by decide)).trans (s7_arg7 m ρ c)

theorem s8_arg8 : W8 m ρ c (Proc.devRef .tc main_arg8) = (m ((c.tc : Thread nD τ).loc main_arg8)) :=
  (W8_of_ne m ρ c main_arg8 (by decide)).trans (s7_arg8 m ρ c)

set_option maxHeartbeats 4000000 in
theorem s9_v48 : W9 m ρ c (Proc.devRef .tc main_v48) = val_main_v52 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  refine (W9_arr m ρ c 2).trans ((Cert.KernelIdeal.Region2.final (V8 m ρ) c).trans ?_)
  rw [show V8 m ρ c main_v47 = _ from s8_v47 m ρ c, show V8 m ρ c main_arg5 = (m ((c.tc : Thread nD τ).loc main_arg5)) from s8_arg5 m ρ c]
  exact (Cert.ReferenceIdeal.Forms.proj_eq _ _).symm

theorem s9_v1 : W9 m ρ c (Proc.devRef .tc main_v1) = val_main_v1 (F := Ideal) (m ((c.tc : Thread nD τ).loc main_arg1)) :=
  (W9_of_ne m ρ c main_v1 (by decide)).trans (s8_v1 m ρ c)

theorem s9_v3 : W9 m ρ c (Proc.devRef .tc main_v3) = val_main_v3 (F := Ideal) (m ((c.tc : Thread nD τ).loc main_arg1)) :=
  (W9_of_ne m ρ c main_v3 (by decide)).trans (s8_v3 m ρ c)

theorem s9_v16 : W9 m ρ c (Proc.devRef .tc main_v16) = val_main_v35 (F := Ideal) (m ((c.tc : Thread nD τ).loc main_arg1)) :=
  (W9_of_ne m ρ c main_v16 (by decide)).trans (s8_v16 m ρ c)

theorem s9_v22 : W9 m ρ c (Proc.devRef .tc main_v22) = val_main_v22 (F := Ideal) (m ((c.tc : Thread nD τ).loc main_arg1)) :=
  (W9_of_ne m ρ c main_v22 (by decide)).trans (s8_v22 m ρ c)

theorem s9_arg2 : W9 m ρ c (Proc.devRef .tc main_arg2) = (m ((c.tc : Thread nD τ).loc main_arg2)) :=
  (W9_of_ne m ρ c main_arg2 (by decide)).trans (s8_arg2 m ρ c)

theorem s9_arg6 : W9 m ρ c (Proc.devRef .tc main_arg6) = (m ((c.tc : Thread nD τ).loc main_arg6)) :=
  (W9_of_ne m ρ c main_arg6 (by decide)).trans (s8_arg6 m ρ c)

theorem s9_arg7 : W9 m ρ c (Proc.devRef .tc main_arg7) = (m ((c.tc : Thread nD τ).loc main_arg7)) :=
  (W9_of_ne m ρ c main_arg7 (by decide)).trans (s8_arg7 m ρ c)

theorem s9_arg8 : W9 m ρ c (Proc.devRef .tc main_arg8) = (m ((c.tc : Thread nD τ).loc main_arg8)) :=
  (W9_of_ne m ρ c main_arg8 (by decide)).trans (s8_arg8 m ρ c)

/-! ## At the fourth launch's entry -/

theorem s10_v16 : W10 m ρ c (Proc.devRef .tc main_v16) = val_main_v35 (F := Ideal) (m ((c.tc : Thread nD τ).loc main_arg1)) := by
  show StableHlo.after hostOps3 (W9 m ρ c) _ = _
  after_results_simp
  exact s9_v16 m ρ c

theorem s10_arg2 : W10 m ρ c (Proc.devRef .tc main_arg2) = (m ((c.tc : Thread nD τ).loc main_arg2)) := by
  show StableHlo.after hostOps3 (W9 m ρ c) _ = _
  after_results_simp
  exact s9_arg2 m ρ c

theorem s10_arg7 : W10 m ρ c (Proc.devRef .tc main_arg7) = (m ((c.tc : Thread nD τ).loc main_arg7)) := by
  show StableHlo.after hostOps3 (W9 m ρ c) _ = _
  after_results_simp
  exact s9_arg7 m ρ c

theorem s10_arg8 : W10 m ρ c (Proc.devRef .tc main_arg8) = (m ((c.tc : Thread nD τ).loc main_arg8)) := by
  show StableHlo.after hostOps3 (W9 m ρ c) _ = _
  after_results_simp
  exact s9_arg8 m ρ c

set_option maxHeartbeats 4000000 in
theorem s10_v70 : W10 m ρ c (Proc.devRef .tc main_v70) = val_main_v93 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  show StableHlo.after hostOps3 (W9 m ρ c) _ = _
  after_results_simp
  rw [s9_v48 m ρ c, s9_v1 m ρ c, s9_v3 m ρ c, s9_v22 m ρ c, ← edge_factor_again]
  rfl

set_option maxHeartbeats 4000000 in
theorem s10_v71 : W10 m ρ c (Proc.devRef .tc main_v71) = val_main_v96 (F := Ideal) (m ((c.tc : Thread nD τ).loc main_arg6)) := by
  show StableHlo.after hostOps3 (W9 m ρ c) _ = _
  after_results_simp
  rw [s9_arg6 m ρ c]
  refine (Cert.LibCastForms.row_cast_eq_bcast _ _ Cert.ReferenceIdeal.Facts₀.bcast_S128_S1x128_1).trans ?_
  rfl

/-! ## After the fourth launch -/

set_option maxHeartbeats 4000000 in
theorem s11_v72 : W11 m ρ c (Proc.devRef .tc main_v72) = val_main_v99 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  refine (W11_arr m ρ c 3).trans ((Cert.KernelIdeal.Region3.final (V10 m ρ) c).trans ?_)
  rw [show V10 m ρ c main_v70 = _ from s10_v70 m ρ c, show V10 m ρ c main_v16 = _ from s10_v16 m ρ c,
    show V10 m ρ c main_v71 = _ from s10_v71 m ρ c, ← factor_again]
  exact (Cert.ReferenceIdeal.Forms.relu_line_eq _ _ _).symm

theorem s11_arg2 : W11 m ρ c (Proc.devRef .tc main_arg2) = (m ((c.tc : Thread nD τ).loc main_arg2)) :=
  (W11_of_ne m ρ c main_arg2 (by decide)).trans (s10_arg2 m ρ c)

theorem s11_arg7 : W11 m ρ c (Proc.devRef .tc main_arg7) = (m ((c.tc : Thread nD τ).loc main_arg7)) :=
  (W11_of_ne m ρ c main_arg7 (by decide)).trans (s10_arg7 m ρ c)

theorem s11_arg8 : W11 m ρ c (Proc.devRef .tc main_arg8) = (m ((c.tc : Thread nD τ).loc main_arg8)) :=
  (W11_of_ne m ρ c main_arg8 (by decide)).trans (s10_arg8 m ρ c)

/-! ## At the last launch's entry, and after it -/

theorem s12_arg7 : W12 m ρ c (Proc.devRef .tc main_arg7) = (m ((c.tc : Thread nD τ).loc main_arg7)) := by
  show StableHlo.after hostOps4 (W11 m ρ c) _ = _
  after_results_simp
  exact s11_arg7 m ρ c

set_option maxHeartbeats 4000000 in
theorem s12_v84 : W12 m ρ c (Proc.devRef .tc main_v84) = val_main_v111 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show StableHlo.after hostOps4 (W11 m ρ c) _ = _
  after_results_simp
  rw [s11_v72 m ρ c, s11_arg2 m ρ c]
  rfl

set_option maxHeartbeats 4000000 in
theorem s12_v85 : W12 m ρ c (Proc.devRef .tc main_v85) = val_main_v113 (F := Ideal) (m ((c.tc : Thread nD τ).loc main_arg8)) := by
  show StableHlo.after hostOps4 (W11 m ρ c) _ = _
  after_results_simp
  rw [s11_arg8 m ρ c]
  refine (Cert.LibCastForms.row_cast_eq_bcast _ _ Cert.ReferenceIdeal.Facts₀.bcast_S2_S1x2_1).trans ?_
  rfl

set_option maxHeartbeats 4000000 in
/-- THE RESULT BUFFER at the end of the program is the reference's last stage value of the nine arguments. -/
theorem s13_v86 : W13 m ρ c (Proc.devRef .tc main_v86) = val_main_v115 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W13_arr m ρ c 3).trans ((Cert.KernelIdeal.Region4.final (V12 m ρ) c).trans ?_)
  rw [show V12 m ρ c main_v84 = _ from s12_v84 m ρ c, show V12 m ρ c main_arg7 = (m ((c.tc : Thread nD τ).loc main_arg7)) from s12_arg7 m ρ c,
    show V12 m ρ c main_v85 = _ from s12_v85 m ρ c]
  exact (Cert.ReferenceIdeal.Forms.affine_line_eq _ _ _).symm

end Cert.KernelIdeal.Stages

end
-- ==== Proof.lean ====
/-
  Two layers of hypergraph convolution, a mean pool over the graphs of the batch and a linear head: the kernel program against
  its plain reference, over the extended reals.

  Both programs compute, from the same nine arguments, the same chain of values. The node and hyperedge degrees are scatter
  sums of ones; their reciprocals (zero where the degree is zero) scale the two gather / scatter-sum passes of each layer; a
  layer is: project by a weight matrix, aggregate nodes to hyperedges and back, scale each row by the node's reciprocal degree,
  add the bias, cut at zero. The pooled sums are divided by the graph sizes (at least one) and sent through the head.
  The kernel program runs the two projections, the two scale / bias / cut steps and the head as five tiled launches and leaves the
  irregular gathers and scatter sums to the host, where it applies the very operations the reference applies. A tiled
  launch writes, block of rows by block of rows, the same dense layer the reference writes in one host line: a product into a
  zero accumulator is the sum over the contracted coordinate however the rows are tiled, and rounding the operands to the narrow
  float format is the identity on the extended reals. The differences left are spellings: a vector recast as a column or a row
  where the reference places it by a broadcast, and the reciprocal degrees computed once where the reference computes them
  twice. No algebraic law beyond these is used, so the precondition (finite inputs) is never opened.

  Modules: Spec (the three dense layers as functions of whole matrices); Region0 … Region4 (each launch's output array is its
  dense layer of the arrays it finds); RefForms (the reference's lines are the same dense layers); KStages (the kernel program's
  buffers, segment by segment, are the reference's stage values); KRun (the kernel program's run with its result named);
  RefRun / RefRead (the reference's run and its stage values).
-/
import proofs.«174854_j3298534884164_1_alg».proof.Defs
import proofs.«174854_j3298534884164_1_alg».proof.Proof.Gen.Kernel
import proofs.«174854_j3298534884164_1_alg».proof.Proof.Gen.Kernel.Frame
import proofs.«174854_j3298534884164_1_alg».proof.Proof.Gen.KernelIdeal
import proofs.«174854_j3298534884164_1_alg».proof.Proof.Gen.KernelIdeal.Frame
import proofs.«174854_j3298534884164_1_alg».proof.Proof.Gen.ReferenceIdeal
import proofs.«174854_j3298534884164_1_alg».proof.Proof.Gen.Pre_finite_inputs
import proofs.«174854_j3298534884164_1_alg».proof.Proof.RefRun
import proofs.«174854_j3298534884164_1_alg».proof.Proof.RefRead
import proofs.«174854_j3298534884164_1_alg».proof.Proof.KRun
import proofs.«174854_j3298534884164_1_alg».proof.Proof.KStages
import Idealize.ShloMosaic.Adequacy
import Idealize.ShloMosaic.Init

noncomputable section

namespace Cert.Proof

open Idealize.ShloMosaic Idealize.ShloMosaic.TcCoe Idealize.SL.Sem

/-- The kernel program as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on the nine arguments both programs end with the reference's last stage value of those
    arguments in their result buffers. -/
theorem algebraic : Cert.algebraic_KernelIdeal_ReferenceIdeal := by
  intro m ρ m' ρ' _ hagree
  refine ⟨fun c => Cert.KernelIdeal.Gen.W13 m ρ c (Proc.devRef .tc Cert.KernelIdeal.main_v86),
    Cert.KernelIdeal.KRun.run_main (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v115_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  exact (Cert.KernelIdeal.Stages.s13_v86 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
